-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x6400000 : Shape := ⟨2, ![2, 6400000]⟩
abbrev S100000 : Shape := ⟨1, ![100000]⟩
abbrev S6400000 : Shape := ⟨1, ![6400000]⟩
abbrev S6400000x2 : Shape := ⟨2, ![6400000, 2]⟩
abbrev S_ : Shape := ⟨0, ![]⟩
abbrev S1x6400000 : Shape := ⟨2, ![1, 6400000]⟩
abbrev S6400000x1 : Shape := ⟨2, ![6400000, 1]⟩

class Facts : Prop where
  bcast_S_S100000 : S_.BroadcastsInDim S100000 (![] : Fin 0 → Fin S100000.rank)
  reducesTo_S100000_S_d0 : S100000.ReducesTo [0] S_
  h_S_ : 0 < S_.numel
  bcast_S_S6400000 : S_.BroadcastsInDim S6400000 (![] : Fin 0 → Fin S6400000.rank)
  reducesTo_S6400000_S_d0 : S6400000.ReducesTo [0] S_
  bcast_S_S6400000x2 : S_.BroadcastsInDim S6400000x2 (![] : Fin 0 → Fin S6400000x2.rank)
  reducesTo_S6400000x2_S_d0_1 : S6400000x2.ReducesTo [0, 1] S_
  slices_S2x6400000_S1x6400000_1_0 : S2x6400000.Slices ![1, 0] S1x6400000
  shapeCasts_S1x6400000_S6400000 : S1x6400000.ShapeCasts S6400000
  bcast_S6400000_S6400000x1_0 : S6400000.BroadcastsInDim S6400000x1 (![0] : Fin 1 → Fin S6400000x1.rank)
  gather_S100000_S6400000x1_S6400000_n_0_n_n_0_1_1_wf : GatherDims.WF S100000 S6400000x1 S6400000 [] [0] [] [0] [] 1 ![1]

variable [Facts]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def fn_part2 {F : FTy → Type} [FloatOps F] (main_v23 : IVec S_ 1) (main_v34 : IVec S6400000 1) : IVec S_ 1 :=
  let main_c_11 : IVec S_ 1 := constantI S_ 1 1#1
  let main_v35 : IVec S_ 1 := (fun x v => Host.reduce IntOp.andi x v reducesTo_S6400000_S_d0 h_S_) main_v34 main_c_11
  let main_v36 : IVec S_ 1 := andi main_v23 main_v35
  main_v36

def fn_part1 {F : FTy → Type} [FloatOps F] (main_arg0 : IVec S2x6400000 32) (main_arg2 : FVec F S100000 .f32) (main_arg5 : FVec F S6400000x2 .f32) (main_v13 : IVec S_ 1) (main_v16 : IVec S6400000 1) : IVec S_ 1 :=
  let main_c_5 : IVec S_ 1 := constantI S_ 1 1#1
  let main_v17 : IVec S_ 1 := (fun x v => Host.reduce IntOp.andi x v reducesTo_S6400000_S_d0 h_S_) main_v16 main_c_5
  let main_v18 : IVec S_ 1 := andi main_v13 main_v17
  let main_v19 : FVec F S6400000x2 .f32 := Host.absf main_arg5
  let main_cst_6 : FVec F S_ .f32 := constant S_ .f32 0x7F800000#32
  let main_v20 : FVec F S6400000x2 .f32 := broadcastInDim S6400000x2 ![] bcast_S_S6400000x2 main_cst_6
  let main_v21 : IVec S6400000x2 1 := cmpf .olt main_v19 main_v20
  let main_c_7 : IVec S_ 1 := constantI S_ 1 1#1
  let main_v22 : IVec S_ 1 := (fun x v => Host.reduce IntOp.andi x v reducesTo_S6400000x2_S_d0_1 h_S_) main_v21 main_c_7
  let main_v23 : IVec S_ 1 := andi main_v18 main_v22
  let main_v24 : IVec S1x6400000 32 := (extractStridedSlice S1x6400000 ![1, 0] · slices_S2x6400000_S1x6400000_1_0) main_arg0
  let main_v25 : IVec S6400000 32 := shapeCast S6400000 main_v24 shapeCasts_S1x6400000_S6400000
  let main_c_8 : IVec S_ 32 := constantI S_ 32 0#32
  let main_v26 : IVec S6400000 32 := broadcastInDim S6400000 ![] bcast_S_S6400000 main_c_8
  let main_v27 : IVec S6400000 1 := cmpi .slt main_v25 main_v26
  let main_c_9 : IVec S_ 32 := constantI S_ 32 100000#32
  let main_v28 : IVec S6400000 32 := broadcastInDim S6400000 ![] bcast_S_S6400000 main_c_9
  let main_v29 : IVec S6400000 32 := addi main_v25 main_v28
  let main_v30 : IVec S6400000 32 := select main_v27 main_v29 main_v25
  let main_v31 : IVec S6400000x1 32 := broadcastInDim S6400000x1 ![0] bcast_S6400000_S6400000x1_0 main_v30
  let main_v32 : FVec F S6400000 .f32 := (fun x i => Host.gather gather_S100000_S6400000x1_S6400000_n_0_n_n_0_1_1 x i) main_arg2 main_v31
  let main_cst_10 : FVec F S_ .f32 := constant S_ .f32 0x00000000#32
  let main_v33 : FVec F S6400000 .f32 := broadcastInDim S6400000 ![] bcast_S_S6400000 main_cst_10
  let main_v34 : IVec S6400000 1 := cmpf .une main_v32 main_v33
  fn_part2 (F := F) main_v23 main_v34

def fn {F : FTy → Type} [FloatOps F] (main_arg0 : IVec S2x6400000 32) (main_arg1 : FVec F S100000 .f32) (main_arg2 : FVec F S100000 .f32) (main_arg3 : FVec F S100000 .f32) (main_arg4 : FVec F S6400000 .f32) (main_arg5 : FVec F S6400000x2 .f32) : IVec S_ 1 :=
  let main_v0 : FVec F S100000 .f32 := Host.absf main_arg1
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S100000 .f32 := Host.absf main_arg2
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S6400000 .f32 := Host.absf main_arg4
  let main_cst_4 : FVec F S_ .f32 := constant S_ .f32 0x7F800000#32
  let main_v15 : FVec F S6400000 .f32 := broadcastInDim S6400000 ![] bcast_S_S6400000 main_cst_4
  let main_v16 : IVec S6400000 1 := cmpf .olt main_v14 main_v15
  fn_part1 (F := F) main_arg0 main_arg2 main_arg5 main_v13 main_v16
-- ==== Kernel.lean ====
abbrev S2x6400000 : Shape := ⟨2, ![2, 6400000]⟩
abbrev S100000 : Shape := ⟨1, ![100000]⟩
abbrev S6400000 : Shape := ⟨1, ![6400000]⟩
abbrev S6400000x2 : Shape := ⟨2, ![6400000, 2]⟩
abbrev S1x6400000 : Shape := ⟨2, ![1, 6400000]⟩
abbrev S_ : Shape := ⟨0, ![]⟩
abbrev S6400000x1 : Shape := ⟨2, ![6400000, 1]⟩
abbrev S50000x128 : Shape := ⟨2, ![50000, 128]⟩
abbrev S2000x128 : Shape := ⟨2, ![2000, 128]⟩
abbrev S100000x2 : Shape := ⟨2, ![100000, 2]⟩
abbrev S100000x1 : Shape := ⟨2, ![100000, 1]⟩

abbrev nBuf : Space → Nat
  | .hbm => 78
  | .vmem => 10
  | .smem => 0
  | _ => 0

abbrev bufTy : (tb : Table) → Fin (tcTables nBuf tb) → BufTy
  | .hbm, ⟨0, _⟩ => ⟨S2x6400000, .i32⟩
  | .hbm, ⟨1, _⟩ => ⟨S100000, .f32⟩
  | .hbm, ⟨2, _⟩ => ⟨S100000, .f32⟩
  | .hbm, ⟨3, _⟩ => ⟨S100000, .f32⟩
  | .hbm, ⟨4, _⟩ => ⟨S6400000, .f32⟩
  | .hbm, ⟨5, _⟩ => ⟨S6400000x2, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S100000, .f32⟩
  | .hbm, ⟨11, _⟩ => ⟨S100000, .f32⟩
  | .hbm, ⟨12, _⟩ => ⟨S_, .i32⟩
  | .hbm, ⟨13, _⟩ => ⟨S6400000, .i32⟩
  | .hbm, ⟨14, _⟩ => ⟨S6400000, .i1⟩
  | .hbm, ⟨15, _⟩ => ⟨S_, .i32⟩
  | .hbm, ⟨16, _⟩ => ⟨S6400000, .i32⟩
  | .hbm, ⟨17, _⟩ => ⟨S6400000, .i32⟩
  | .hbm, ⟨18, _⟩ => ⟨S6400000, .i32⟩
  | .hbm, ⟨19, _⟩ => ⟨S6400000x1, .i32⟩
  | .hbm, ⟨20, _⟩ => ⟨S6400000, .f32⟩
  | .hbm, ⟨21, _⟩ => ⟨S_, .i32⟩
  | .hbm, ⟨22, _⟩ => ⟨S6400000, .i32⟩
  | .hbm, ⟨23, _⟩ => ⟨S6400000, .i1⟩
  | .hbm, ⟨24, _⟩ => ⟨S_, .i32⟩
  | .hbm, ⟨25, _⟩ => ⟨S6400000, .i32⟩
  | .hbm, ⟨26, _⟩ => ⟨S6400000, .i32⟩
  | .hbm, ⟨27, _⟩ => ⟨S6400000, .i32⟩
  | .hbm, ⟨28, _⟩ => ⟨S6400000x1, .i32⟩
  | .hbm, ⟨29, _⟩ => ⟨S6400000, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S6400000, .f32⟩
  | .hbm, ⟨36, _⟩ => ⟨S6400000, .f32⟩
  | .hbm, ⟨37, _⟩ => ⟨S6400000x1, .f32⟩
  | .hbm, ⟨38, _⟩ => ⟨S6400000x2, .f32⟩
  | .hbm, ⟨39, _⟩ => ⟨S6400000x2, .f32⟩
  | .hbm, ⟨40, _⟩ => ⟨S6400000x1, .f32⟩
  | .hbm, ⟨41, _⟩ => ⟨S6400000x2, .f32⟩
  | .hbm, ⟨42, _⟩ => ⟨S6400000x2, .f32⟩
  | .hbm, ⟨43, _⟩ => ⟨S_, .f32⟩
  | .hbm, ⟨44, _⟩ => ⟨S100000x2, .f32⟩
  | .hbm, ⟨45, _⟩ => ⟨S6400000x1, .i32⟩
  | .hbm, ⟨46, _⟩ => ⟨S100000x2, .f32⟩
  | .hbm, ⟨47, _⟩ => ⟨S_, .f32⟩
  | .hbm, ⟨48, _⟩ => ⟨S100000x2, .f32⟩
  | .hbm, ⟨49, _⟩ => ⟨S6400000x1, .i32⟩
  | .hbm, ⟨50, _⟩ => ⟨S100000x2, .f32⟩
  | .hbm, ⟨51, _⟩ => ⟨S_, .f32⟩
  | .hbm, ⟨52, _⟩ => ⟨S6400000, .f32⟩
  | .hbm, ⟨53, _⟩ => ⟨S_, .f32⟩
  | .hbm, ⟨54, _⟩ => ⟨S100000, .f32⟩
  | .hbm, ⟨55, _⟩ => ⟨S6400000x1, .i32⟩
  | .hbm, ⟨56, _⟩ => ⟨S100000, .f32⟩
  | .hbm, ⟨57, _⟩ => ⟨S_, .i32⟩
  | .hbm, ⟨58, _⟩ => ⟨S6400000, .i32⟩
  | .hbm, ⟨59, _⟩ => ⟨S6400000, .i1⟩
  | .hbm, ⟨60, _⟩ => ⟨S_, .i32⟩
  | .hbm, ⟨61, _⟩ => ⟨S6400000, .i32⟩
  | .hbm, ⟨62, _⟩ => ⟨S6400000, .i32⟩
  | .hbm, ⟨63, _⟩ => ⟨S6400000, .i32⟩
  | .hbm, ⟨64, _⟩ => ⟨S6400000x1, .i32⟩
  | .hbm, ⟨65, _⟩ => ⟨S6400000x2, .f32⟩
  | .hbm, ⟨66, _⟩ => ⟨S_, .f32⟩
  | .hbm, ⟨67, _⟩ => ⟨S100000x2, .f32⟩
  | .hbm, ⟨68, _⟩ => ⟨S6400000x1, .i32⟩
  | .hbm, ⟨69, _⟩ => ⟨S100000x2, .f32⟩
  | .hbm, ⟨70, _⟩ => ⟨S100000x1, .f32⟩
  | .hbm, ⟨71, _⟩ => ⟨S100000x2, .f32⟩
  | .hbm, ⟨72, _⟩ => ⟨S100000x2, .f32⟩
  | .hbm, ⟨73, _⟩ => ⟨S100000x2, .f32⟩
  | .hbm, ⟨74, _⟩ => ⟨S_, .f32⟩
  | .hbm, ⟨75, _⟩ => ⟨S100000x2, .f32⟩
  | .hbm, ⟨76, _⟩ => ⟨S100000x2, .f32⟩
  | .hbm, ⟨77, _⟩ => ⟨S100000x2, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | _, _ => ⟨S2x6400000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_v42 : Ref sig .tc := ⟨.hbm, 58, rfl⟩
abbrev main_v43 : Ref sig .tc := ⟨.hbm, 59, rfl⟩
abbrev main_c_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  shapeCasts_S6400000_S50000x128 : S6400000.ShapeCasts S50000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  shapeCasts_S50000x128_S6400000 : S50000x128.ShapeCasts S6400000
  bcast_S6400000x1_S6400000x2_0_1 : S6400000x1.BroadcastsInDim S6400000x2 (![0, 1] : Fin 2 → Fin S6400000x2.rank)
  bcast_S_S100000x2 : S_.BroadcastsInDim S100000x2 (![] : Fin 0 → Fin S100000x2.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  gather_S100000_S6400000x1_S6400000_n_0_n_n_0_1_1_wf : GatherDims.WF S100000 S6400000x1 S6400000 [] [0] [] [0] [] 1 ![1]
  scatter_S100000x2_S6400000x1_S6400000x2_1_0_0_1_wf : ScatterDims.WF S100000x2 S6400000x1 S6400000x2 [1] [0] [0] 1
  scatter_S100000_S6400000x1_S6400000_n_0_0_1_wf : ScatterDims.WF S100000 S6400000x1 S6400000 [] [0] [0] 1
  gather_S100000x2_S6400000x1_S6400000x2_1_0_n_n_0_1_12_wf : GatherDims.WF S100000x2 S6400000x1 S6400000x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def scatter_S100000x2_S6400000x1_S6400000x2_1_0_0_1 : ScatterDims S100000x2 S6400000x1 S6400000x2 where
  updateWindowDims := [1]
  insertedWindowDims := [0]
  scatterDimsToOperandDims := [0]
  indexVectorDim := 1
  wf := scatter_S100000x2_S6400000x1_S6400000x2_1_0_0_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000x2_S6400000x1_S6400000x2_1_0_n_n_0_1_12 : GatherDims S100000x2 S6400000x1 S6400000x2 where
  offsetDims := [1]
  collapsedSliceDims := [0]
  operandBatchingDims := []
  startIndicesBatchingDims := []
  startIndexMap := [0]
  indexVectorDim := 1
  sliceSizes := ![1, 2]
  wf := gather_S100000x2_S6400000x1_S6400000x2_1_0_n_n_0_1_12_wf

abbrev win0_0 : Pipeline.Window sig grid0 :=
  Pipeline.Window.ofSpec (Memref.whole main_v20) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x6400000 : Shape := ⟨2, ![2, 6400000]⟩
abbrev S100000 : Shape := ⟨1, ![100000]⟩
abbrev S6400000 : Shape := ⟨1, ![6400000]⟩
abbrev S6400000x2 : Shape := ⟨2, ![6400000, 2]⟩
abbrev S1x6400000 : Shape := ⟨2, ![1, 6400000]⟩
abbrev S_ : Shape := ⟨0, ![]⟩
abbrev S6400000x1 : Shape := ⟨2, ![6400000, 1]⟩
abbrev S100000x2 : Shape := ⟨2, ![100000, 2]⟩

abbrev nBuf : Space → Nat
  | .hbm => 140
  | .vmem => 0
  | .smem => 0
  | _ => 0

abbrev hbmTy0_0 (i : Nat) : BufTy := match i % 128 with
  | 0 => ⟨S2x6400000, .i32⟩
  | 1 => ⟨S100000, .f32⟩
  | 2 => ⟨S100000, .f32⟩
  | 3 => ⟨S100000, .f32⟩
  | 4 => ⟨S6400000, .f32⟩
  | 5 => ⟨S6400000x2, .f32⟩
  | 6 => ⟨S1x6400000, .i32⟩
  | 7 => ⟨S6400000, .i32⟩
  | 8 => ⟨S1x6400000, .i32⟩
  | 9 => ⟨S6400000, .i32⟩
  | 10 => ⟨S_, .i32⟩
  | 11 => ⟨S6400000, .i32⟩
  | 12 => ⟨S6400000, .i1⟩
  | 13 => ⟨S_, .i32⟩
  | 14 => ⟨S6400000, .i32⟩
  | 15 => ⟨S6400000, .i32⟩
  | 16 => ⟨S6400000, .i32⟩
  | 17 => ⟨S6400000x1, .i32⟩
  | 18 => ⟨S6400000, .f32⟩
  | 19 => ⟨S_, .i32⟩
  | 20 => ⟨S6400000, .i32⟩
  | 21 => ⟨S6400000, .i1⟩
  | 22 => ⟨S_, .i32⟩
  | 23 => ⟨S6400000, .i32⟩
  | 24 => ⟨S6400000, .i32⟩
  | 25 => ⟨S6400000, .i32⟩
  | 26 => ⟨S6400000x1, .i32⟩
  | 27 => ⟨S6400000, .f32⟩
  | 28 => ⟨S6400000, .f32⟩
  | 29 => ⟨S_, .f32⟩
  | 30 => ⟨S6400000, .f32⟩
  | 31 => ⟨S6400000, .f32⟩
  | 32 => ⟨S_, .f32⟩
  | 33 => ⟨S6400000, .f32⟩
  | 34 => ⟨S6400000, .f32⟩
  | 35 => ⟨S_, .f32⟩
  | 36 => ⟨S_, .f32⟩
  | 37 => ⟨S6400000, .f32⟩
  | 38 => ⟨S6400000, .f32⟩
  | 39 => ⟨S6400000, .f32⟩
  | 40 => ⟨S6400000, .f32⟩
  | 41 => ⟨S6400000, .f32⟩
  | 42 => ⟨S_, .f32⟩
  | 43 => ⟨S6400000, .f32⟩
  | 44 => ⟨S6400000, .f32⟩
  | 45 => ⟨S_, .f32⟩
  | 46 => ⟨S6400000, .f32⟩
  | 47 => ⟨S6400000, .f32⟩
  | 48 => ⟨S6400000x1, .f32⟩
  | 49 => ⟨S6400000x2, .f32⟩
  | 50 => ⟨S6400000x2, .f32⟩
  | 51 => ⟨S6400000x1, .f32⟩
  | 52 => ⟨S6400000x2, .f32⟩
  | 53 => ⟨S6400000x2, .f32⟩
  | 54 => ⟨S_, .f32⟩
  | 55 => ⟨S100000x2, .f32⟩
  | 56 => ⟨S6400000x1, .i32⟩
  | 57 => ⟨S100000x2, .f32⟩
  | 58 => ⟨S_, .f32⟩
  | 59 => ⟨S100000x2, .f32⟩
  | 60 => ⟨S100000x2, .f32⟩
  | 61 => ⟨S_, .i32⟩
  | 62 => ⟨S6400000, .i32⟩
  | 63 => ⟨S6400000, .i1⟩
  | 64 => ⟨S_, .i32⟩
  | 65 => ⟨S6400000, .i32⟩
  | 66 => ⟨S6400000, .i32⟩
  | 67 => ⟨S6400000, .i32⟩
  | 68 => ⟨S6400000x1, .i32⟩
  | 69 => ⟨S6400000x2, .f32⟩
  | 70 => ⟨S_, .i32⟩
  | 71 => ⟨S6400000, .i32⟩
  | 72 => ⟨S6400000, .i1⟩
  | 73 => ⟨S_, .i32⟩
  | 74 => ⟨S6400000, .i32⟩
  | 75 => ⟨S6400000, .i32⟩
  | 76 => ⟨S6400000, .i32⟩
  | 77 => ⟨S6400000x1, .i32⟩
  | 78 => ⟨S6400000x2, .f32⟩
  | 79 => ⟨S6400000x2, .f32⟩
  | 80 => ⟨S_, .f32⟩
  | 81 => ⟨S100000x2, .f32⟩
  | 82 => ⟨S6400000x1, .i32⟩
  | 83 => ⟨S100000x2, .f32⟩
  | 84 => ⟨S_, .f32⟩
  | 85 => ⟨S100000x2, .f32⟩
  | 86 => ⟨S100000x2, .f32⟩
  | 87 => ⟨S_, .i32⟩
  | 88 => ⟨S6400000, .i32⟩
  | 89 => ⟨S6400000, .i1⟩
  | 90 => ⟨S_, .i32⟩
  | 91 => ⟨S6400000, .i32⟩
  | 92 => ⟨S6400000, .i32⟩
  | 93 => ⟨S6400000, .i32⟩
  | 94 => ⟨S6400000x1, .i32⟩
  | 95 => ⟨S6400000, .f32⟩
  | 96 => ⟨S_, .i32⟩
  | 97 => ⟨S6400000, .i32⟩
  | 98 => ⟨S6400000, .i1⟩
  | 99 => ⟨S_, .i32⟩
  | 100 => ⟨S6400000, .i32⟩
  | 101 => ⟨S6400000, .i32⟩
  | 102 => ⟨S6400000, .i32⟩
  | 103 => ⟨S6400000x1, .i32⟩
  | 104 => ⟨S6400000, .f32⟩
  | 105 => ⟨S6400000, .f32⟩
  | 106 => ⟨S_, .f32⟩
  | 107 => ⟨S6400000, .f32⟩
  | 108 => ⟨S6400000, .f32⟩
  | 109 => ⟨S6400000, .f32⟩
  | 110 => ⟨S6400000, .f32⟩
  | 111 => ⟨S6400000, .f32⟩
  | 112 => ⟨S6400000, .f32⟩
  | 113 => ⟨S6400000, .f32⟩
  | 114 => ⟨S_, .f32⟩
  | 115 => ⟨S6400000, .f32⟩
  | 116 => ⟨S6400000, .f32⟩
  | 117 => ⟨S_, .f32⟩
  | 118 => ⟨S6400000, .f32⟩
  | 119 => ⟨S6400000, .f32⟩
  | 120 => ⟨S_, .f32⟩
  | 121 => ⟨S6400000, .f32⟩
  | 122 => ⟨S6400000, .f32⟩
  | 123 => ⟨S_, .f32⟩
  | 124 => ⟨S6400000, .f32⟩
  | 125 => ⟨S6400000, .i1⟩
  | 126 => ⟨S6400000, .f32⟩
  | 127 => ⟨S6400000, .f32⟩
  | _ => ⟨S2x6400000, .i32⟩

abbrev hbmTy0_1 (i : Nat) : BufTy := match i % 128 with
  | 0 => ⟨S6400000, .f32⟩
  | 1 => ⟨S6400000x1, .f32⟩
  | 2 => ⟨S6400000x2, .f32⟩
  | 3 => ⟨S6400000x2, .f32⟩
  | 4 => ⟨S_, .f32⟩
  | 5 => ⟨S100000x2, .f32⟩
  | 6 => ⟨S6400000x1, .i32⟩
  | 7 => ⟨S100000x2, .f32⟩
  | 8 => ⟨S_, .f32⟩
  | 9 => ⟨S100000x2, .f32⟩
  | 10 => ⟨S100000x2, .f32⟩
  | 11 => ⟨S100000x2, .f32⟩
  | _ => ⟨S2x6400000, .i32⟩

abbrev hbmTy (i : Nat) : BufTy := match i / 128 with
  | 0 => hbmTy0_0 i
  | 1 => hbmTy0_1 i
  | _ => ⟨S2x6400000, .i32⟩

abbrev bufTy : (tb : Table) → Fin (tcTables nBuf tb) → BufTy
  | .hbm, ⟨i, _⟩ => hbmTy i
  | _, _ => ⟨S2x6400000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_c_9 : Ref sig .tc := ⟨.hbm, 61, rfl⟩
abbrev main_v42 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_c_12 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_14 : Ref sig .tc := ⟨.hbm, 84, rfl⟩
abbrev main_v60 : Ref sig .tc := ⟨.hbm, 85, rfl⟩
abbrev main_v61 : Ref sig .tc := ⟨.hbm, 86, rfl⟩
abbrev main_c_15 : Ref sig .tc := ⟨.hbm, 87, rfl⟩
abbrev main_v62 : Ref sig .tc := ⟨.hbm, 88, rfl⟩
abbrev main_v63 : Ref sig .tc := ⟨.hbm, 89, rfl⟩
abbrev main_c_16 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_17 : Ref sig .tc := ⟨.hbm, 96, rfl⟩
abbrev main_v69 : Ref sig .tc := ⟨.hbm, 97, rfl⟩
abbrev main_v70 : Ref sig .tc := ⟨.hbm, 98, rfl⟩
abbrev main_c_18 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_19 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_20 : Ref sig .tc := ⟨.hbm, 114, rfl⟩
abbrev main_v84 : Ref sig .tc := ⟨.hbm, 115, rfl⟩
abbrev main_v85 : Ref sig .tc := ⟨.hbm, 116, rfl⟩
abbrev main_cst_21 : Ref sig .tc := ⟨.hbm, 117, rfl⟩
abbrev main_v86 : Ref sig .tc := ⟨.hbm, 118, rfl⟩
abbrev main_v87 : Ref sig .tc := ⟨.hbm, 119, rfl⟩
abbrev main_cst_22 : Ref sig .tc := ⟨.hbm, 120, rfl⟩
abbrev main_v88 : Ref sig .tc := ⟨.hbm, 121, rfl⟩
abbrev main_v89 : Ref sig .tc := ⟨.hbm, 122, rfl⟩
abbrev main_cst_23 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_24 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_25 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S6400000x1_S6400000x2_0_1 : S6400000x1.BroadcastsInDim S6400000x2 (![0, 1] : Fin 2 → Fin S6400000x2.rank)
  bcast_S_S100000x2 : S_.BroadcastsInDim S100000x2 (![] : Fin 0 → Fin S100000x2.rank)
  gather_S100000_S6400000x1_S6400000_n_0_n_n_0_1_1_wf : GatherDims.WF S100000 S6400000x1 S6400000 [] [0] [] [0] [] 1 ![1]
  scatter_S100000x2_S6400000x1_S6400000x2_1_0_0_1_wf : ScatterDims.WF S100000x2 S6400000x1 S6400000x2 [1] [0] [0] 1
  gather_S100000x2_S6400000x1_S6400000x2_1_0_n_n_0_1_12_wf : GatherDims.WF S100000x2 S6400000x1 S6400000x2 [1] [0] [] [0] [] 1 ![1, 2]

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def scatter_S100000x2_S6400000x1_S6400000x2_1_0_0_1 : ScatterDims S100000x2 S6400000x1 S6400000x2 where
  updateWindowDims := [1]
  insertedWindowDims := [0]
  scatterDimsToOperandDims := [0]
  indexVectorDim := 1
  wf := scatter_S100000x2_S6400000x1_S6400000x2_1_0_0_1_wf
def gather_S100000x2_S6400000x1_S6400000x2_1_0_n_n_0_1_12 : GatherDims S100000x2 S6400000x1 S6400000x2 where
  offsetDims := [1]
  collapsedSliceDims := [0]
  operandBatchingDims := []
  startIndicesBatchingDims := []
  startIndexMap := [0]
  indexVectorDim := 1
  sliceSizes := ![1, 2]
  wf := gather_S100000x2_S6400000x1_S6400000x2_1_0_n_n_0_1_12_wf

class Facts : Prop extends Facts₀ where

variable [Facts]
-- ==== Proof.LibPreDecode.lean ====
/-
  A precondition's conjuncts read back, element by element.

  A precondition written as a conjunction of `jnp.all` tests prints as a chain of `and`s of whole-array reductions by
  `and`, and the claim says the chain is 1. Each reduction that is 1 met only 1s (the library's `Host.reduce_andi_all`);
  what an element being 1 says depends on the test:

  * `|x| < +inf` on a float array, read at the extended reals: the entry is a real number (the only extended reals
    whose absolute value is not the top element) — `all_real`;
  * `(m == 0) | (m == 1)` on an integer array: the entry is the word 0 or the word 1 — `all_zero_or_one` —, and such a
    word converted to a float is the real 0 or 1 — `sitofp_zero_or_one` —, so that it is its own square
    (`mask_idem`).

  Everything is stated over any shapes, the compared constants as arrays with their entries given, so that a
  printed `broadcast_in_dim` of a scalar constant is supplied by `fun _ => rfl`.
-/
import Idealize.ShloMosaic.Lib.ReduceAll
import Idealize.ShloMosaic.PureOps.Ideal
import Idealize.ShloMosaic.PureOps.Ideal.Laws

noncomputable section

namespace Cert.LibPreDecode

open Idealize.ShloMosaic

/-- The f32 word of +inf denotes the top extended real. -/
theorem ofBits_inf : FloatOps.ofBits (F := Ideal) .f32 0x7F800000#32 = (⊤ : EReal) := by
  simp [Ideal.ofBits, Ideal.ieee]

/-- An extended real whose absolute value lies strictly below the top is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- One entry of the test `|x| < +inf` being 1 says the entry is a real number. -/
theorem real_of_abs_lt_inf (x y : Ideal .f32) (hy : y = FloatOps.ofBits (F := Ideal) .f32 0x7F800000#32)
    (h : FloatOps.cmpf (F := Ideal) .olt (FloatOps.hostAbsf x) y = 1#1) : ∃ r : ℝ, x = (r : EReal) := by
  rw [hy, ofBits_inf, Ideal.hostAbsf_def, Ideal.cmpf_def, Ideal.absf_def] at h
  refine exists_real_of_abs_lt_top x ?_
  by_contra hlt
  simp [Ideal.cmp, hlt] at h

/-- `jnp.all(|x| < inf)` is 1: every entry of `x` is a real number. -/
theorem all_real {s t u : Shape} {axes : List (Fin s.rank)} [Subsingleton t.Idx]
    (x inf : FVec Ideal s .f32) (hinf : ∀ i, inf i = FloatOps.ofBits (F := Ideal) .f32 0x7F800000#32)
    (init : u.Idx → BitVec 1) (h : s.ReducesTo axes t) (hu : 0 < u.numel) (j : t.Idx)
    (e : Host.reduce IntOp.andi (cmpf .olt (Host.absf x) inf) init h hu j = 1#1) (i : s.Idx) :
    ∃ r : ℝ, x i = (r : EReal) :=
  real_of_abs_lt_inf (x i) (inf i) (hinf i) (Host.reduce_andi_all _ init h hu j e i)

/-- `jnp.all((m == 0) | (m == 1))` is 1: every entry of `m` is the word 0 or the word 1. -/
theorem all_zero_or_one {s t u : Shape} {axes : List (Fin s.rank)} [Subsingleton t.Idx] {w : Nat}
    (m z o : IVec s w) (a b : BitVec w) (hz : ∀ i, z i = a) (ho : ∀ i, o i = b)
    (init : u.Idx → BitVec 1) (h : s.ReducesTo axes t) (hu : 0 < u.numel) (j : t.Idx)
    (e : Host.reduce IntOp.andi (ori (cmpi .eq m z) (cmpi .eq m o)) init h hu j = 1#1) (i : s.Idx) :
    m i = a ∨ m i = b := by
  have h1 : IntOp.ori (IntOp.cmpi .eq (m i) (z i)) (IntOp.cmpi .eq (m i) (o i)) = 1#1 :=
    Host.reduce_andi_all _ init h hu j e i
  rcases IntOp.ori_eq_one.1 h1 with h2 | h2
  · exact Or.inl ((IntOp.cmpi_eq.1 h2).trans (hz i))
  · exact Or.inr ((IntOp.cmpi_eq.1 h2).trans (ho i))

/-- A 32-bit word that is 0 or 1, converted to a float, is the real 0 or the real 1. -/
theorem sitofp_zero_or_one (b : BitVec 32) (h : b = 0#32 ∨ b = 1#32) :
    FloatOps.sitofp (F := Ideal) .f32 b = ((0 : ℝ) : EReal) ∨ FloatOps.sitofp (F := Ideal) .f32 b = ((1 : ℝ) : EReal) := by
  rcases h with rfl | rfl
  · left; show (((0#32 : BitVec 32).toInt : ℝ) : EReal) = _; norm_num
  · right; show (((1#32 : BitVec 32).toInt : ℝ) : EReal) = _; norm_num

/-- A mask entry that is the real 0 or 1 is its own square. -/
theorem mask_idem (x : EReal) (h : x = ((0 : ℝ) : EReal) ∨ x = ((1 : ℝ) : EReal)) : x * x = x := by
  rcases h with rfl | rfl <;> simp

end Cert.LibPreDecode

end
-- ==== Proof.PreFacts.lean ====
/-
  THE PRECONDITION READ BACK, entry by entry.

  The precondition is a conjunction of six whole-array tests: five say that every entry of a float argument has an
  absolute value below `+inf` — over the extended reals, that the entry is a real number —, the sixth that the
  densities the reference divides by, `fluidDensities[j]` with `j = neighbors[1]` (a negative word counted from the
  end, the row number then clamped into the table), are none of them zero.
-/
import proofs.«151074_j47021301957211_2_alg».proof.Pre_finite_inputs
import proofs.«151074_j47021301957211_2_alg».proof.Proof.LibPreDecode
import Idealize.ShloMosaic.Lib.ValueIdx
import Idealize.ShloMosaic.Lib.ReduceAll
import Idealize.ShloMosaic.PureOps.Ideal.Laws

set_option maxRecDepth 16384

noncomputable section

namespace Cert.PreFacts

open Idealize.ShloMosaic Idealize.ShloMosaic.ValueIdx Cert.Pre_finite_inputs

variable [Cert.Pre_finite_inputs.Facts]
open Cert.Pre_finite_inputs.Facts

/-- The scalar shape has one index. -/
instance : Subsingleton S_.Idx := ⟨fun a b => funext fun d => d.elim0⟩

theorem and1 : ∀ (a b : BitVec 1), IntOp.andi a b = 1#1 ↔ a = 1#1 ∧ b = 1#1 := by decide

/-- The second row of the neighbour list, as a vector of words. -/
def dstWords (nb : IVec S2x6400000 32) : IVec S6400000 32 :=
  shapeCast S6400000 (extractStridedSlice S1x6400000 ![1, 0] nb slices_S2x6400000_S1x6400000_1_0) shapeCasts_S1x6400000_S6400000

/-- The row numbers the precondition's gather reads at: a negative word counted from the end, as a column. -/
def srcIdx (nb : IVec S2x6400000 32) : IVec S6400000x1 32 :=
  broadcastInDim S6400000x1 ![0] bcast_S6400000_S6400000x1_0
    (select (cmpi .slt (dstWords nb) (broadcastInDim S6400000 ![] bcast_S_S6400000 (constantI S_ 32 0#32)))
      (addi (dstWords nb) (broadcastInDim S6400000 ![] bcast_S_S6400000 (constantI S_ 32 100000#32))) (dstWords nb))

/-- A test `x ≠ 0` that is 1 says the entry is not zero. -/
theorem ne_zero_of_une (x : Ideal .f32) (h : FloatOps.cmpf (F := Ideal) .une x (FloatOps.ofBits .f32 0x00000000#32) = 1#1) : x ≠ 0 := by
  rw [Ideal.cmpf_def, Ideal.ofBits_def, Ideal.ofBits_zero_f32] at h
  intro hx
  subst hx
  simp [Ideal.cmp] at h

/-- THE PRECONDITION DECODED: every float argument holds real numbers, and no gathered density is zero. -/
theorem decode (nb : IVec S2x6400000 32) (A D R : FVec Ideal S100000 .f32) (Q : FVec Ideal S6400000 .f32)
    (X : FVec Ideal S6400000x2 .f32) (h : fn (F := Ideal) nb A D R Q X = fun _ => 1#1) :
    (∀ i, ∃ r : ℝ, A i = (r : EReal)) ∧ (∀ i, ∃ r : ℝ, D i = (r : EReal)) ∧ (∀ i, ∃ r : ℝ, R i = (r : EReal))
      ∧ (∀ i, ∃ r : ℝ, Q i = (r : EReal)) ∧ (∀ i, ∃ r : ℝ, X i = (r : EReal))
      ∧ (∀ e, Host.gather gather_S100000_S6400000x1_S6400000_n_0_n_n_0_1_1 D (srcIdx nb) e ≠ 0) := by
  have e := congrFun h ix0
  dsimp only [fn, fn_part1, fn_part2, andi] at e
  simp only [and1] at e
  obtain ⟨⟨⟨⟨⟨hA, hD⟩, hR⟩, hQ⟩, hX⟩, hne⟩ := e
  refine ⟨Cert.LibPreDecode.all_real _ _ (fun _ => rfl) _ _ _ _ hA, Cert.LibPreDecode.all_real _ _ (fun _ => rfl) _ _ _ _ hD,
    Cert.LibPreDecode.all_real _ _ (fun _ => rfl) _ _ _ _ hR, Cert.LibPreDecode.all_real _ _ (fun _ => rfl) _ _ _ _ hQ,
    Cert.LibPreDecode.all_real _ _ (fun _ => rfl) _ _ _ _ hX, fun i => ?_⟩
  exact ne_zero_of_une _ (Host.reduce_andi_all _ _ _ _ _ hne i)

end Cert.PreFacts

end
-- ==== Proof.RegionValue.lean ====
/-
  WHAT THE KERNEL'S REGION LEAVES IN ITS TWO RESULT ARRAYS, as whole-array functions of the three arrays it reads.

  The body works edge by edge: from an edge's radial distance `q` and its two gathered node factors it computes
    • the gradient scale  `(h·f) · ((C · ((−20·q) · max(0, 1−q)³)) / h)`   (`gradAt q f`), and
    • the cohesion scale  `((−1)·g) · (0 − k(q))`, `k(q)` the piecewise polynomial `128·(q−1)³q³ + 1` for `q ≤ 1/2` and
      `64·(q−1)³q³` otherwise   (`cohAt q g`),
  with `h`, `C` the two float constants the program carries. The edges are laid out as a `[50000, 128]` array that the
  grid walks in 25 blocks of 2000 rows; every window moves with the grid point the same way (block `(t, 0)`), so entry
  `(r, l)` of a result depends on entry `(r, l)` of the operands only, and the 25 blocks tile the array: each result array
  is the scalar function applied entry by entry (`final3`, `final4`).
-/
import proofs.«151074_j47021301957211_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region

open Cert.KernelIdeal Cert.KernelIdeal.Gen

variable {F : FTy → Type} [FloatOps F]

/-! ## The body's two scalar functions -/

/-- `max(0, 1 − q)`. -/
def clipAt (q : F .f32) : F .f32 :=
  FloatOps.maximumf (Scalar.ofBits .f32 0x00000000#32) (FloatOps.subf (Scalar.ofBits .f32 0x3F800000#32) q)

/-- The gradient scale of one edge: `(h·f) · ((C · ((−20·q) · clip³)) / h)`. -/
def gradAt (q f : F .f32) : F .f32 :=
  FloatOps.mulf (FloatOps.mulf (Scalar.ofBits .f32 0x3D4CCCCD#32) f)
    (FloatOps.divf
      (FloatOps.mulf (Scalar.ofBits .f32 0x445ED122#32)
        (FloatOps.mulf (FloatOps.mulf (Scalar.ofBits .f32 0xC1A00000#32) q)
          (FloatOps.mulf (FloatOps.mulf (clipAt q) (clipAt q)) (clipAt q))))
      (Scalar.ofBits .f32 0x3D4CCCCD#32))

/-- `(q − 1)³ · q³`. -/
def cubesAt (q : F .f32) : F .f32 :=
  FloatOps.mulf
    (FloatOps.mulf (FloatOps.mulf (FloatOps.subf q (Scalar.ofBits .f32 0x3F800000#32)) (FloatOps.subf q (Scalar.ofBits .f32 0x3F800000#32)))
      (FloatOps.subf q (Scalar.ofBits .f32 0x3F800000#32)))
    (FloatOps.mulf (FloatOps.mulf q q) q)

/-- The piecewise polynomial: `128·cubes + 1` where `q ≤ 1/2`, `64·cubes` elsewhere. -/
def kernAt (q : F .f32) : F .f32 :=
  Scalar.select (FloatOps.cmpf .ole q (Scalar.ofBits .f32 0x3F000000#32))
    (FloatOps.addf (FloatOps.mulf (Scalar.ofBits .f32 0x43000000#32) (cubesAt q)) (Scalar.ofBits .f32 0x3F800000#32))
    (FloatOps.mulf (Scalar.ofBits .f32 0x42800000#32) (cubesAt q))

/-- The cohesion scale of one edge: `((−1)·g) · (0 − kern q)`. -/
def cohAt (q g : F .f32) : F .f32 :=
  FloatOps.mulf (FloatOps.mulf (Scalar.ofBits .f32 0xBF800000#32) g)
    (FloatOps.subf (Scalar.ofBits .f32 0x00000000#32) (kernAt q))

/-- The store into the first result's block is `gradAt` entry by entry. -/
theorem pay4_eq (xq xf : Vec F S2000x128 .f32) : k0_pay4 xq xf = fun i => gradAt (xq i) (xf i) := by
  unfold k0_pay4 k0_pay2
  simp only [shapeCast_self]
  rfl

/-- The store into the second result's block is `cohAt` entry by entry. -/
theorem pay1_eq (xg xq : Vec F S2000x128 .f32) : k0_pay1 (k0_pay3 xg) (k0_pay5 xq) = fun i => cohAt (xq i) (xg i) := by
  unfold k0_pay1 k0_pay3 k0_pay5 k0_pay2
  simp only [shapeCast_self]
  rfl

/-! ## From blocks to the arrays -/

variable (m : (ℓ : Loc nD τ sig) → Buf (Elt F) ℓ) (ρ : Dev nD → PrngReg)

theorem hz : (![0, 0] : Fin 2 → Nat) = fun _ => 0 := funext fun a => by fin_cases a <;> rfl

/-- The first result array as one function of the arrays the region reads. -/
abbrev G3 (q f : S50000x128.Idx → Elt F .f32) : S50000x128.Idx → Elt F .f32 := fun i => gradAt (q i) (f i)
/-- The second result array as one function of the arrays the region reads. -/
abbrev G4 (q g : S50000x128.Idx → Elt F .f32) : S50000x128.Idx → Elt F .f32 := fun i => cohAt (q i) (g i)

/-- Every window's block at point `t` is block `(t, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point `t` writes back to the first result is block `t` of `G3`. -/
theorem flushed3_eq (c : Dev nD) (t : Fin cfg0.N) :
    (dats m 0 c).flushed 3 t = ((cfg0.win 3).blk t).view.read (Elt F) (G3 (V m c main_v22) (V m c main_v20)) := by
  show (cfg0.win 3).cut (grid0.coords t) ((dats m 0 c).after 3 t) = _
  rw [after0_3]
  unfold out0_3
  rw [View.canon_unit_zero hz]
  simp only [View.ld_unit_zero (S := S2000x128) hz]
  rw [pay4_eq]
  obtain ⟨e00, e01, e10, e11, e20, e21, e30, e31, e40, e41⟩ := idx_facts t
  funext j
  show gradAt (V m c main_v22 (((cfg0.win 2).blk t).view.emb j)) (V m c main_v20 (((cfg0.win 0).blk t).view.emb j))
    = gradAt (V m c main_v22 (((cfg0.win 3).blk t).view.emb j)) (V m c main_v20 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 2000 + 1 * (j 0).val = win0_3.index t (0 : Fin 2) * 2000 + 1 * (j 0).val; omega
    | ⟨1, _⟩ => show win0_2.index t (1 : Fin 2) * 128 + 1 * (j 1).val = win0_3.index t (1 : Fin 2) * 128 + 1 * (j 1).val; omega
  rw [h0, h2]

/-- What point `t` writes back to the second result is block `t` of `G4`. -/
theorem flushed4_eq (c : Dev nD) (t : Fin cfg0.N) :
    (dats m 0 c).flushed 4 t = ((cfg0.win 4).blk t).view.read (Elt F) (G4 (V m c main_v22) (V m c main_v21)) := by
  show (cfg0.win 4).cut (grid0.coords t) ((dats m 0 c).after 4 t) = _
  rw [after0_4]
  unfold out0_4
  rw [View.canon_unit_zero hz]
  simp only [View.ld_unit_zero (S := S2000x128) hz]
  rw [pay1_eq]
  obtain ⟨e00, e01, e10, e11, e20, e21, e30, e31, e40, e41⟩ := idx_facts t
  funext j
  show cohAt (V m c main_v22 (((cfg0.win 2).blk t).view.emb j)) (V m c main_v21 (((cfg0.win 1).blk t).view.emb j))
    = cohAt (V m c main_v22 (((cfg0.win 4).blk t).view.emb j)) (V m c main_v21 (((cfg0.win 4).blk t).view.emb j))
  have h1 : ((cfg0.win 1).blk t).view.emb j = ((cfg0.win 4).blk t).view.emb j := by
    funext a; apply Fin.ext
    match a with
    | ⟨0, _⟩ => show win0_1.index t (0 : Fin 2) * 2000 + 1 * (j 0).val = win0_4.index t (0 : Fin 2) * 2000 + 1 * (j 0).val; omega
    | ⟨1, _⟩ => show win0_1.index t (1 : Fin 2) * 128 + 1 * (j 1).val = win0_4.index t (1 : Fin 2) * 128 + 1 * (j 1).val; omega
  have h2 : ((cfg0.win 2).blk t).view.emb j = ((cfg0.win 4).blk t).view.emb j := by
    funext a; apply Fin.ext
    match a with
    | ⟨0, _⟩ => show win0_2.index t (0 : Fin 2) * 2000 + 1 * (j 0).val = win0_4.index t (0 : Fin 2) * 2000 + 1 * (j 0).val; omega
    | ⟨1, _⟩ => show win0_2.index t (1 : Fin 2) * 128 + 1 * (j 1).val = win0_4.index t (1 : Fin 2) * 128 + 1 * (j 1).val; omega
  rw [h1, h2]

/-- An index of the first result is in point `t`'s block iff each coordinate is in the block's range on its axis. -/
theorem mem_blk3 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v23_0).slice (win0_3.rect t)).set ↔ _
  rw [View.set_slice_whole, Rect.mem_set_unit]
  exact Iff.rfl

/-- The same for the second result. -/
theorem mem_blk4 (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v23_1).slice (win0_4.rect t)).set ↔ _
  rw [View.set_slice_whole, Rect.mem_set_unit]
  exact Iff.rfl

/-- Row `r` lies in the block of point `r / 2000`: the 25 blocks tile the first result. -/
theorem cover3 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, e30, e31, -, -⟩ := idx_facts t
  refine ⟨t, flush0_3 t, ?_⟩
  rw [mem_blk3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- And the second. -/
theorem cover4 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, -, -, e40, e41⟩ := idx_facts t
  refine ⟨t, flush0_4 t, ?_⟩
  rw [mem_blk4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- THE FIRST RESULT ARRAY after the region: the gradient scale, entry by entry. -/
theorem final3 (c : Dev nD) : (dats m 0 c).arrAt 3 cfg0.N = G3 (V m c main_v22) (V m c main_v20) :=
  (dats m 0 c).arrAt_eq_of_cover 3 (G3 (V m c main_v22) (V m c main_v20)) (fun t _ => flushed3_eq m c t) cover3

/-- THE SECOND RESULT ARRAY after the region: the cohesion scale, entry by entry. -/
theorem final4 (c : Dev nD) : (dats m 0 c).arrAt 4 cfg0.N = G4 (V m c main_v22) (V m c main_v21) :=
  (dats m 0 c).arrAt_eq_of_cover 4 (G4 (V m c main_v22) (V m c main_v21)) (fun t _ => flushed4_eq m c t) cover4

end Cert.KernelIdeal.Region

end
-- ==== Proof.KernelTail.lean ====
/-
  THE KERNEL PROGRAM'S RESULT as one term of its arguments.

  Around the region the program works on the host: before it, the node tables `areas / densities` and
  `areas · restDensity` are gathered at the edges' second end `j` and laid out, with the radial distances, as the
  `[50000, 128]` arrays the region reads; after it, the two result arrays are flattened back to one entry per edge,
  spread over the two coordinates of the edge's direction and summed into the edges' first end `i`
  (`normals`, `cohesion`); the normals are gathered at `j` and summed into `i` again, the number of edges landing on a
  node counted by a sum of ones, and the result is `(−1)·(count·normals − that sum) + cohesion` (`tailForm`).
  `tail_read` reads the host lines after the region over any contents of the buffers they start from; `kernel_value`
  puts the region's two arrays (entry by entry the body's scalar functions) and the lines before the region in.
-/
import proofs.«151074_j47021301957211_2_alg».proof.Proof.RegionValue
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Tail

open Cert.KernelIdeal Cert.KernelIdeal.Gen Cert.KernelIdeal.Region

variable {F : FTy → Type} [FloatOps F]

/-! ## The host lines after the region -/

/-- A vector of edge words as the `[E, 1]` column a gather or a scatter reads. -/
def col (v : IVec S6400000 32) : IVec S6400000x1 32 := broadcastInDim S6400000x1 ![0] bcast_S6400000_S6400000x1_0 v

/-- A negative word counted from the end of the node table. -/
def wrap (v : IVec S6400000 32) : IVec S6400000 32 :=
  select (cmpi .slt v (broadcastInDim S6400000 ![] bcast_S_S6400000 (constantI S_ 32 0#32)))
    (addi v (broadcastInDim S6400000 ![] bcast_S_S6400000 (constantI S_ 32 100000#32))) v

/-- One value per edge spread over the two coordinates. -/
def spread (v : FVec F S6400000 .f32) : FVec F S6400000x2 .f32 :=
  broadcastInDim S6400000x2 ![0, 1] bcast_S6400000x1_S6400000x2_0_1 (broadcastInDim S6400000x1 ![0] bcast_S6400000_S6400000x1_0 v)

/-- The zero table the sums start from. -/
def zeros2 : FVec F S100000x2 .f32 := broadcastInDim S100000x2 ![] bcast_S_S100000x2 (constant S_ .f32 0x00000000#32)

/-- Per-edge rows summed into the rows the first ends name. -/
def nodeSum (iw : IVec S6400000 32) (u : FVec F S6400000x2 .f32) : FVec F S100000x2 .f32 :=
  Host.scatterAdd scatter_S100000x2_S6400000x1_S6400000x2_1_0_0_1 zeros2 (col iw) u

/-- The number of edges landing on each node, as a float: ones summed into the first ends. -/
def degree (iw : IVec S6400000 32) : FVec F S100000 .f32 :=
  Host.scatterAdd scatter_S100000_S6400000x1_S6400000_n_0_0_1 (broadcastInDim S100000 ![] bcast_S_S100000 (constant S_ .f32 0x00000000#32))
    (col iw) (broadcastInDim S6400000 ![] bcast_S_S6400000 (constant S_ .f32 0x3F800000#32))

/-- The program's result from the edge words, the region's two arrays and the directions. -/
def tailForm (iw jw : IVec S6400000 32) (a3 a4 : FVec F S50000x128 .f32) (X : FVec F S6400000x2 .f32) : FVec F S100000x2 .f32 :=
  addf
    (mulf (broadcastInDim S100000x2 ![] bcast_S_S100000x2 (constant S_ .f32 0xBF800000#32))
      (subf
        (mulf (broadcastInDim S100000x2 ![0, 1] bcast_S100000x1_S100000x2_0_1 (broadcastInDim S100000x1 ![0] bcast_S100000_S100000x1_0 (degree iw)))
          (nodeSum iw (mulf (spread (shapeCast S6400000 a3 shapeCasts_S50000x128_S6400000)) X)))
        (nodeSum iw (Host.gather gather_S100000x2_S6400000x1_S6400000x2_1_0_n_n_0_1_12
          (nodeSum iw (mulf (spread (shapeCast S6400000 a3 shapeCasts_S50000x128_S6400000)) X)) (col (wrap jw))))))
    (nodeSum iw (mulf (spread (shapeCast S6400000 a4 shapeCasts_S50000x128_S6400000)) X))

set_option maxHeartbeats 40000000 in
/-- The lines after the region, from any contents of the buffers they read: the result buffer holds `tailForm`. -/
theorem tail_read (W : Valuation τ sig (Elt F)) :
    (StableHlo.after hostOps1 W (Proc.devRef .tc main_v58) : S100000x2.Idx → Elt F .f32)
      = tailForm (W (Proc.devRef .tc main_v1)) (W (Proc.devRef .tc main_v3)) (W (Proc.devRef .tc main_v23_0))
          (W (Proc.devRef .tc main_v23_1)) (W (Proc.devRef .tc main_arg5)) := by
  after_results
  rfl

/-! ## The host lines before the region -/

/-- Row `k` of the neighbour list as a vector of edge words. -/
def edgeWords (off : Fin 2 → Nat) (h : S2x6400000.Slices off S1x6400000) (nb : IVec S2x6400000 32) : IVec S6400000 32 :=
  shapeCast S6400000 (extractStridedSlice S1x6400000 off nb h) shapeCasts_S1x6400000_S6400000

/-- The edges' first ends. -/
abbrev iWords (nb : IVec S2x6400000 32) : IVec S6400000 32 := edgeWords ![0, 0] slices_S2x6400000_S1x6400000_0_0 nb
/-- The edges' second ends. -/
abbrev jWords (nb : IVec S2x6400000 32) : IVec S6400000 32 := edgeWords ![1, 0] slices_S2x6400000_S1x6400000_1_0 nb

/-- The per-edge gradient factor: `areas / densities` at the second end. -/
def facN (nb : IVec S2x6400000 32) (A D : FVec F S100000 .f32) : FVec F S6400000 .f32 :=
  Host.gather gather_S100000_S6400000x1_S6400000_n_0_n_n_0_1_1 (Host.divf A D) (col (wrap (jWords nb)))

/-- The per-edge cohesion factor: `areas · restDensity` at the second end. -/
def facC (nb : IVec S2x6400000 32) (A R : FVec F S100000 .f32) : FVec F S6400000 .f32 :=
  Host.gather gather_S100000_S6400000x1_S6400000_n_0_n_n_0_1_1 (mulf A R) (col (wrap (jWords nb)))

/-- THE KERNEL PROGRAM'S RESULT as one function of its six arguments. -/
def kernelResult (nb : IVec S2x6400000 32) (A D R : FVec F S100000 .f32) (Q : FVec F S6400000 .f32) (X : FVec F S6400000x2 .f32) :
    FVec F S100000x2 .f32 :=
  tailForm (iWords nb) (jWords nb)
    (G3 (shapeCast S50000x128 Q shapeCasts_S6400000_S50000x128) (shapeCast S50000x128 (facN nb A D) shapeCasts_S6400000_S50000x128))
    (G4 (shapeCast S50000x128 Q shapeCasts_S6400000_S50000x128) (shapeCast S50000x128 (facC nb A R) shapeCasts_S6400000_S50000x128))
    X

variable (m : (ℓ : Loc nD τ sig) → Buf (Elt F) ℓ) (ρ : Dev nD → PrngReg)

set_option maxHeartbeats 8000000 in
theorem V_v1 (c : Dev nD) : (V m c main_v1 : IVec S6400000 32) = iWords (m ((c : Thread nD τ).loc main_arg0)) := by
  show StableHlo.after hostOps0 (fun b => m (c, b)) (Proc.devRef .tc main_v1) = _
  after_results
  rfl

set_option maxHeartbeats 8000000 in
theorem V_v3 (c : Dev nD) : (V m c main_v3 : IVec S6400000 32) = jWords (m ((c : Thread nD τ).loc main_arg0)) := by
  show StableHlo.after hostOps0 (fun b => m (c, b)) (Proc.devRef .tc main_v3) = _
  after_results
  rfl

set_option maxHeartbeats 8000000 in
theorem V_v20 (c : Dev nD) : (V m c main_v20 : S50000x128.Idx → Elt F .f32)
    = shapeCast S50000x128 (facN (m ((c : Thread nD τ).loc main_arg0)) (m ((c : Thread nD τ).loc main_arg1)) (m ((c : Thread nD τ).loc main_arg2))) shapeCasts_S6400000_S50000x128 := by
  show StableHlo.after hostOps0 (fun b => m (c, b)) (Proc.devRef .tc main_v20) = _
  after_results
  rfl

set_option maxHeartbeats 8000000 in
theorem V_v21 (c : Dev nD) : (V m c main_v21 : S50000x128.Idx → Elt F .f32)
    = shapeCast S50000x128 (facC (m ((c : Thread nD τ).loc main_arg0)) (m ((c : Thread nD τ).loc main_arg1)) (m ((c : Thread nD τ).loc main_arg3))) shapeCasts_S6400000_S50000x128 := by
  show StableHlo.after hostOps0 (fun b => m (c, b)) (Proc.devRef .tc main_v21) = _
  after_results
  rfl

set_option maxHeartbeats 8000000 in
theorem V_v22 (c : Dev nD) : (V m c main_v22 : S50000x128.Idx → Elt F .f32)
    = shapeCast S50000x128 (m ((c : Thread nD τ).loc main_arg4) : S6400000.Idx → Elt F .f32) shapeCasts_S6400000_S50000x128 := by
  show StableHlo.after hostOps0 (fun b => m (c, b)) (Proc.devRef .tc main_v22) = _
  after_results
  rfl

end Cert.KernelIdeal.Tail

end
-- ==== Proof.KernelRun.lean ====
/-
  THE KERNEL PROGRAM'S RUN, READ: its result buffer ends at `Tail.kernelResult` of the launch contents.

  The frame run leaves the region's two result arrays at what the library computes from the blocks the grid points wrote
  back — the body's scalar functions entry by entry (`Region.final3`, `Region.final4`) of the arrays the host lines before
  the region prepared — and every other buffer as the host lines after the region leave it (`Tail.tail_read`).
-/
import proofs.«151074_j47021301957211_2_alg».proof.Proof.KernelTail

set_option maxRecDepth 16384

noncomputable section

open Idealize.ShloMosaic Idealize.ShloMosaic.TcCoe Idealize.SL.Sem Idealize.ShloMosaic.StableHlo
open Idealize.ShloMosaic.Pipeline (Dat)

namespace Cert.KernelIdeal.Tail

open Cert.KernelIdeal Cert.KernelIdeal.Gen Cert.KernelIdeal.Region

variable {F : FTy → Type} [FloatOps F]
variable (m : (ℓ : Loc nD τ sig) → Buf (Elt F) ℓ) (ρ : Dev nD → PrngReg)

/-! ## The program's result -/

/-- What the result buffer holds after the run's last host line is `kernelResult` of the launch contents. -/
theorem kernel_value (c : Dev nD) :
    (Pipeline.afterTail₀ cfgs (dats m) 0 (V0 m) [hostOps1] c main_v58 : S100000x2.Idx → Elt F .f32)
      = kernelResult (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  unfold Pipeline.afterTail₀
  show StableHlo.after hostOps1 _ (Proc.devRef .tc main_v58) = _
  refine (tail_read _).trans ?_
  have e1 : (Pipeline.withArrays (cfgs 0).spec c (V0 m c) (fun w => (dats m 0 c).arrAt w (cfgs 0).N) (Proc.devRef .tc main_v1) : IVec S6400000 32)
      = iWords (m ((c : Thread nD τ).loc main_arg0)) :=
    (Pipeline.withArrays_of_ne _ c (V0 m c) _ main_v1 (by exact (by decide : ∀ w, Pipeline.arrRef spec0 w ≠ main_v1))).trans (V_v1 m c)
  have e3 : (Pipeline.withArrays (cfgs 0).spec c (V0 m c) (fun w => (dats m 0 c).arrAt w (cfgs 0).N) (Proc.devRef .tc main_v3) : IVec S6400000 32)
      = jWords (m ((c : Thread nD τ).loc main_arg0)) :=
    (Pipeline.withArrays_of_ne _ c (V0 m c) _ main_v3 (by exact (by decide : ∀ w, Pipeline.arrRef spec0 w ≠ main_v3))).trans (V_v3 m c)
  have e5 : (Pipeline.withArrays (cfgs 0).spec c (V0 m c) (fun w => (dats m 0 c).arrAt w (cfgs 0).N) (Proc.devRef .tc main_arg5) : S6400000x2.Idx → Elt F .f32)
      = m ((c : Thread nD τ).loc main_arg5) :=
    (Pipeline.withArrays_of_ne _ c (V0 m c) _ main_arg5 (by exact (by decide : ∀ w, Pipeline.arrRef spec0 w ≠ main_arg5))).trans (V_main_arg5 m c)
  have e23 : (Pipeline.withArrays (cfgs 0).spec c (V0 m c) (fun w => (dats m 0 c).arrAt w (cfgs 0).N) (Proc.devRef .tc main_v23_0) : S50000x128.Idx → Elt F .f32)
      = G3 (shapeCast S50000x128 (m ((c : Thread nD τ).loc main_arg4) : S6400000.Idx → Elt F .f32) shapeCasts_S6400000_S50000x128)
          (shapeCast S50000x128 (facN (m ((c : Thread nD τ).loc main_arg0)) (m ((c : Thread nD τ).loc main_arg1)) (m ((c : Thread nD τ).loc main_arg2))) shapeCasts_S6400000_S50000x128) :=
    (Pipeline.withArrays_arr spec0 launch0.win.arr_inj c _ _ 3).trans ((final3 m c).trans (by rw [V_v22, V_v20]))
  have e24 : (Pipeline.withArrays (cfgs 0).spec c (V0 m c) (fun w => (dats m 0 c).arrAt w (cfgs 0).N) (Proc.devRef .tc main_v23_1) : S50000x128.Idx → Elt F .f32)
      = G4 (shapeCast S50000x128 (m ((c : Thread nD τ).loc main_arg4) : S6400000.Idx → Elt F .f32) shapeCasts_S6400000_S50000x128)
          (shapeCast S50000x128 (facC (m ((c : Thread nD τ).loc main_arg0)) (m ((c : Thread nD τ).loc main_arg1)) (m ((c : Thread nD τ).loc main_arg3))) shapeCasts_S6400000_S50000x128) :=
    (Pipeline.withArrays_arr spec0 launch0.win.arr_inj c _ _ 4).trans ((final4 m c).trans (by rw [V_v22, V_v21]))
  unfold kernelResult
  rw [e1, e3, e5, e23, e24]

/-- THE KERNEL PROGRAM'S RUN, READ: every weakly fair execution terminates with the result buffer at `kernelResult` of the
    launch contents and the arguments unchanged. -/
theorem kernel_run : θ_run defs (onTc (τ := τ) (main (F := F))) ⟨m, fun _ => 0, ρ⟩ (fun r => ∀ c : Dev nD,
      r.2.mem ((c.tc : Thread nD τ).loc main_v58)
        = kernelResult (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v58 (Pipeline.mem_restRefs_of main_v58 (by decide) (by decide))).trans (kernel_value m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Tail

end
-- ==== Proof.LibAggRows.lean ====
/-
  ROWS OF A TABLE READ AND ACCUMULATED THROUGH AN INDEX COLUMN, AT AN ENTRY.

  Two host operations over a table of `N` rows and `C` columns and a column of `E` integer words (held as an
  `[E, 1]` array):
    • the ROW GATHER `table[idx]`: result row `e` is the table's row at the `e`-th word, read as a signed integer
      and clamped into `[0, N − 1]` (`srcRow`, `rowGather_apply`);
    • the ROW SCATTER-ADD `zeros.at[idx].add(rows)` over the extended reals: entry `(i, c)` of the result is the
      operand's entry plus the sum of the entries `(e, c)` of the update rows whose word, read as a signed integer
      and NOT clamped, is `i`; a word outside `[0, N)` drops its row (`dstRow?`, `rowScatterAdd_apply`).
  Every statement is over the extents `N`, `E`, `C` and the word width `w` as variables.
-/
import Idealize.ShloMosaic.PureOps.Ideal
import Idealize.ShloMosaic.Lib.ValueIdx

noncomputable section

open scoped BigOperators

namespace Cert.LibAggRows

open Idealize.ShloMosaic Idealize.ShloMosaic.ValueIdx

/-! ## The row gather

Operand `[N, C]`, start indices `[E, 1]`, result `[E, C]`; the operand's axis 0 is collapsed and is the one the start
index names, its axis 1 is kept whole (slice sizes `[1, C]`) and is the result's offset axis 1; the index vector lies
along the start indices' axis 1. -/

section Gather
variable {α : Type}

/-- The row gather's dimension numbers for an operand `[N, C]`, start indices `[E, 1]` and result `[E, C]`; their
    conditions `wf` are decided on literal extents. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row that result row `e` reads: the `e`-th start index, read as a signed integer and clamped into
    `[0, N − 1]` (a negative word reads row `0`, a word at or above `N` reads row `N − 1`). It depends on neither
    the number of columns nor the table's contents. -/
def srcRow {E w : Nat} (N : Nat) (hN : 0 < N) (idx : IVec ⟨2, ![E, 1]⟩ w) (e : Fin E) : Fin N :=
  ⟨min (idx (ix2 e (0 : Fin 1))).toInt.toNat (N - 1), by omega⟩

/-- On the operand's axis 0 (collapsed, named by the start index map) the operand index of result entry `(e, c)` is
    the clamped start index: no batching coordinate, no offset. -/
theorem rowGather_operandIdx0 {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx 0 = srcRow N hN idx e := by
  refine Fin.ext ?_
  show (rowGatherDims N E C wf).start (ix2 e c) idx 0 + (rowGatherDims N E C wf).batchCoord (ix2 e c) 0
    + (rowGatherDims N E C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the operand's axis 1 (kept whole, not named by the start index map) the operand index of result entry
    `(e, c)` is the result's column `c`: start `0`, no batching coordinate, offset `c`. -/
theorem rowGather_operandIdx1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx 1 = c := by
  refine Fin.ext ?_
  show (rowGatherDims N E C wf).start (ix2 e c) idx 1 + (rowGatherDims N E C wf).batchCoord (ix2 e c) 1
    + (rowGatherDims N E C wf).offCoord (ix2 e c) 1 = _
  have hk : (1 : Fin 2) ∈ (rowGatherDims N E C wf).sKept :=
    (GatherDims.mem_sKept _ _).mpr ⟨(by decide : (1 : Fin 2) ∉ [0]), List.not_mem_nil⟩
  rw [GatherDims.batchCoord_eq_zero _ _ _ List.not_mem_nil]
  unfold GatherDims.start GatherDims.offCoord
  rw [dif_neg (show (1 : Fin 2) ∉ (rowGatherDims N E C wf).startIndexMap from (by decide : (1 : Fin 2) ∉ [0])), dif_pos hk]
  simp only [Nat.add_zero, Nat.zero_add]
  rfl

/-- THE ROW GATHER READ AT `(e, c)`: the table's entry in column `c` of the row `srcRow N hN idx e`, the `e`-th start
    index read signed and clamped into `[0, N − 1]`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (srcRow N hN idx e) c) := by
  unfold Host.gather
  rw [eq_ix2 ((rowGatherDims N E C wf).operandIdx (ix2 e c) idx), rowGather_operandIdx0 hN wf idx e c,
    rowGather_operandIdx1 wf idx e c]
  rfl

end Gather

/-! ## The row scatter-add, over the extended reals

Operand `[N, C]`, scatter indices `[E, 1]`, updates `[E, C]`; the operand's axis 0 is inserted and is the one the
scatter index names, the updates' axis 1 is the window axis and goes to the operand's axis 1; the index vector lies along
the scatter indices' axis 1. -/

section ScatterAdd

/-- Two rank-2 indices with equal coordinates are equal. -/
theorem idx2_ext {n0 n1 : Nat} (f g : (⟨2, ![n0, n1]⟩ : Shape).Idx) (h0 : f 0 = g 0) (h1 : f 1 = g 1) : f = g := by
  rw [eq_ix2 f, eq_ix2 g, h0, h1]

/-- The row scatter's dimension numbers for an operand `[N, C]`, scatter indices `[E, 1]` and updates `[E, C]`; their
    conditions `wf` are decided on literal extents. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The operand row that update row `e` is added to: the `e`-th scatter index read as a signed integer, NOT clamped,
    when it lies in `[0, N)`; `none` when it does not (the row is dropped). It depends on neither the number of
    columns nor the arrays' contents. -/
def dstRow? {E w : Nat} (N : Nat) (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- On the operand's axis 0 the window of update entry `(e, c)` starts at the `e`-th scatter index, read signed. -/
theorem rowScatter_start0 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's axis 1, which the scatter index does not name, the window starts at `0`. -/
theorem rowScatter_start1 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from (by decide : (1 : Fin 2) ∉ [0]))]

/-- On the operand's axis 0, an inserted axis, the window coordinate is `0`. -/
theorem rowScatter_window0 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 0 = 0 := by
  unfold ScatterDims.window
  rw [dif_neg]
  show (0 : Fin 2) ∉ Shape.kept ⟨2, ![N, C]⟩ [0]
  simp [Shape.kept]

/-- On the operand's axis 1 the window coordinate of update entry `(e, c)` is its column `c`. -/
theorem rowScatter_window1 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 1 = c.val := by
  unfold ScatterDims.window
  have hk : (1 : Fin 2) ∈ (rowScatterDims N E C wf).sKept := by
    show (1 : Fin 2) ∈ Shape.kept ⟨2, ![N, C]⟩ [0]
    simp [Shape.kept]
  rw [dif_pos hk]
  rfl

/-- THE LANDING ENTRY of update entry `(e, c)`: column `c` of the row `dstRow? N idx e`, when there is one. -/
theorem rowScatter_resultIdx? {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).resultIdx? (ix2 e c) idx = (dstRow? N idx e).map (fun r => ix2 r c) := by
  have hs0 := rowScatter_start0 wf idx e c
  have hs1 := rowScatter_start1 wf idx e c
  have hw0 := rowScatter_window0 wf e c
  have hw1 := rowScatter_window1 wf e c
  have hc : c.val < C := c.isLt
  unfold ScatterDims.resultIdx? dstRow?
  by_cases h : 0 ≤ (idx (ix2 e (0 : Fin 1))).toInt ∧ (idx (ix2 e (0 : Fin 1))).toInt < (N : Int)
  · have hall : ∀ a, 0 ≤ (rowScatterDims N E C wf).start (ix2 e c) idx a + (rowScatterDims N E C wf).window (ix2 e c) a ∧
        (rowScatterDims N E C wf).start (ix2 e c) idx a + (rowScatterDims N E C wf).window (ix2 e c) a
          < (⟨2, ![N, C]⟩ : Shape).size a := by
      rw [Fin.forall_fin_two, hs0, hs1, hw0, hw1]
      refine ⟨⟨by simpa using h.1, by simpa using h.2⟩, ⟨by simp, by simpa using hc⟩⟩
    rw [dif_pos hall, dif_pos h, Option.map_some]
    refine congrArg some (idx2_ext _ _ (Fin.ext ?_) (Fin.ext ?_))
    · show ((rowScatterDims N E C wf).start (ix2 e c) idx 0 + (rowScatterDims N E C wf).window (ix2 e c) 0).toNat
        = (idx (ix2 e (0 : Fin 1))).toInt.toNat
      rw [hs0, hw0]; simp
    · show ((rowScatterDims N E C wf).start (ix2 e c) idx 1 + (rowScatterDims N E C wf).window (ix2 e c) 1).toNat
        = c.val
      rw [hs1, hw1]; simp
  · rw [dif_neg h, dif_neg]
    · rfl
    · intro hall
      have h0 := hall 0
      rw [hs0, hw0] at h0
      exact h (by simpa using h0)

/-- An update entry `j` lands on entry `(i, c)` exactly when its row's scatter index is `i` and its column is `c`. -/
theorem rowScatter_resultIdx?_eq_some {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : Fin N) (c : Fin C) :
    (rowScatterDims N E C wf).resultIdx? j idx = some (ix2 i c) ↔ dstRow? N idx (j 0) = some i ∧ j 1 = c := by
  obtain ⟨e, c', rfl⟩ : ∃ e c', j = ix2 e c' := ⟨j 0, j 1, eq_ix2 j⟩
  show _ ↔ dstRow? N idx e = some i ∧ c' = c
  rw [rowScatter_resultIdx? wf idx e c', Option.map_eq_some_iff]
  constructor
  · rintro ⟨r, hr, hrc⟩
    have h0 : r = i := congrFun hrc 0
    have h1 : c' = c := congrFun hrc 1
    exact ⟨by rw [hr, h0], h1⟩
  · rintro ⟨hr, rfl⟩
    exact ⟨i, hr, rfl⟩

/-- THE ROW SCATTER-ADD READ AT `(i, c)`: the operand's entry plus the sum, over the update rows `e` whose scatter
    index (read signed, not clamped) is `i`, of their entries in column `c`. -/
theorem rowScatterAdd_apply {N E C w : Nat} (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (i : Fin N) (c : Fin C) :
    Host.scatterAdd (F := Ideal) (rowScatterDims N E C wf) x idx upd (ix2 i c)
      = x (ix2 i c) + ∑ e ∈ Finset.univ.filter (fun e : Fin E => dstRow? N idx e = some i), upd (ix2 e c) := by
  show x (ix2 i c) + ∑ j ∈ Finset.univ.filter (fun j => (rowScatterDims N E C wf).resultIdx? j idx = some (ix2 i c)), upd j = _
  congr 1
  refine Finset.sum_nbij' (fun j => j 0) (fun e => ix2 e c) ?_ ?_ ?_ ?_ ?_
  · intro j hj
    rw [Finset.mem_filter] at hj
    exact Finset.mem_filter.mpr ⟨Finset.mem_univ _, ((rowScatter_resultIdx?_eq_some wf idx j i c).mp hj.2).1⟩
  · intro e he
    rw [Finset.mem_filter] at he
    exact Finset.mem_filter.mpr ⟨Finset.mem_univ _, (rowScatter_resultIdx?_eq_some wf idx (ix2 e c) i c).mpr ⟨he.2, rfl⟩⟩
  · intro j hj
    rw [Finset.mem_filter] at hj
    have h1 := ((rowScatter_resultIdx?_eq_some wf idx j i c).mp hj.2).2
    rw [← h1]; exact (eq_ix2 j).symm
  · intro e _; rfl
  · intro j hj
    rw [Finset.mem_filter] at hj
    have h1 := ((rowScatter_resultIdx?_eq_some wf idx j i c).mp hj.2).2
    rw [← h1]; exact congrArg upd (eq_ix2 j)

end ScatterAdd

end Cert.LibAggRows

end
-- ==== Proof.LibVecScatter.lean ====
/-
  A VECTOR ACCUMULATED THROUGH AN INDEX COLUMN, AT AN ENTRY.

  The host's accumulating scatter of a vector of `E` updates into a vector of `N` entries, through a column of `E`
  integer words held as an `[E, 1]` array (what `zeros(N).at[idx].add(u)` lowers to, a segment sum of scalars): over the
  extended reals, entry `i` of the result is the operand's entry plus the sum of the updates `e` whose word, read as a
  signed integer and NOT clamped, is `i`; a word outside `[0, N)` drops its update. The landing entry is the one of the
  row scatter of a table with the same index column (`Cert.LibAggRows.dstRow?`), so a count of the rows landing on a
  row — the scatter of ones — and a sum of table rows landing there range over the same set of updates.
  Every statement is over the extents `N`, `E` and the word width `w` as variables.
-/
import Idealize.ShloMosaic.PureOps.Ideal
import Idealize.ShloMosaic.Lib.ValueIdx
import proofs.«151074_j47021301957211_2_alg».proof.Proof.LibAggRows

noncomputable section

open scoped BigOperators

namespace Cert.LibVecScatter

open Idealize.ShloMosaic Idealize.ShloMosaic.ValueIdx Cert.LibAggRows

/-- The vector scatter's dimension numbers for an operand `[N]`, scatter indices `[E, 1]` and updates `[E]`: no
    window axis, the operand's one axis inserted and named by the scatter index, the index vector along the scatter
    indices' axis 1. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update `e` starts at the `e`-th scatter index, read signed. -/
theorem vecScatter_start {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: the window coordinate there is `0`. -/
theorem vecScatter_window {N E : Nat} (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  rw [dif_neg]
  show (0 : Fin 1) ∉ Shape.kept ⟨1, ![N]⟩ [0]
  simp [Shape.kept]

/-- Two rank-1 indices with equal coordinates are equal. -/
theorem idx1_ext {n : Nat} (f g : (⟨1, ![n]⟩ : Shape).Idx) (h : f 0 = g 0) : f = g := by
  rw [eq_ix1 f, eq_ix1 g, h]

/-- THE LANDING ENTRY of update `e`: the entry `dstRow? N idx e`, when there is one. -/
theorem vecScatter_resultIdx? {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).resultIdx? (ix1 e) idx = (dstRow? N idx e).map (fun r => ix1 r) := by
  have hs := vecScatter_start wf idx e
  have hw := vecScatter_window wf e
  unfold ScatterDims.resultIdx? dstRow?
  by_cases h : 0 ≤ (idx (ix2 e (0 : Fin 1))).toInt ∧ (idx (ix2 e (0 : Fin 1))).toInt < (N : Int)
  · have hall : ∀ a, 0 ≤ (vecScatterDims N E wf).start (ix1 e) idx a + (vecScatterDims N E wf).window (ix1 e) a ∧
        (vecScatterDims N E wf).start (ix1 e) idx a + (vecScatterDims N E wf).window (ix1 e) a
          < (⟨1, ![N]⟩ : Shape).size a := by
      intro a
      obtain rfl : a = 0 := Subsingleton.elim _ _
      rw [hs, hw]
      exact ⟨by simpa using h.1, by simpa using h.2⟩
    rw [dif_pos hall, dif_pos h, Option.map_some]
    refine congrArg some (idx1_ext _ _ (Fin.ext ?_))
    show ((vecScatterDims N E wf).start (ix1 e) idx 0 + (vecScatterDims N E wf).window (ix1 e) 0).toNat
      = (idx (ix2 e (0 : Fin 1))).toInt.toNat
    rw [hs, hw]; simp
  · rw [dif_neg h, dif_neg]
    · rfl
    · intro hall
      have h0 := hall 0
      rw [hs, hw] at h0
      exact h (by simpa using h0)

/-- An update `j` lands on entry `i` exactly when its scatter index is `i`. -/
theorem vecScatter_resultIdx?_eq_some {N E w : Nat} (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : Fin N) :
    (vecScatterDims N E wf).resultIdx? j idx = some (ix1 i) ↔ dstRow? N idx (j 0) = some i := by
  obtain ⟨e, rfl⟩ : ∃ e, j = ix1 e := ⟨j 0, eq_ix1 j⟩
  show _ ↔ dstRow? N idx e = some i
  rw [vecScatter_resultIdx? wf idx e, Option.map_eq_some_iff]
  constructor
  · rintro ⟨r, hr, hri⟩
    have h0 : r = i := congrFun hri 0
    rw [hr, h0]
  · intro hr
    exact ⟨i, hr, rfl⟩

/-- THE VECTOR SCATTER-ADD READ AT `i`: the operand's entry plus the sum of the updates `e` whose scatter index (read
    signed, not clamped) is `i`. -/
theorem vecScatterAdd_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (F := Ideal) (vecScatterDims N E wf) x idx upd (ix1 i)
      = x (ix1 i) + ∑ e ∈ Finset.univ.filter (fun e : Fin E => dstRow? N idx e = some i), upd (ix1 e) := by
  show x (ix1 i) + ∑ j ∈ Finset.univ.filter (fun j => (vecScatterDims N E wf).resultIdx? j idx = some (ix1 i)), upd j = _
  congr 1
  refine Finset.sum_nbij' (fun j => j 0) (fun e => ix1 e) ?_ ?_ ?_ ?_ ?_
  · intro j hj
    rw [Finset.mem_filter] at hj
    exact Finset.mem_filter.mpr ⟨Finset.mem_univ _, (vecScatter_resultIdx?_eq_some wf idx j i).mp hj.2⟩
  · intro e he
    rw [Finset.mem_filter] at he
    exact Finset.mem_filter.mpr ⟨Finset.mem_univ _, (vecScatter_resultIdx?_eq_some wf idx (ix1 e) i).mpr he.2⟩
  · intro j _; exact (eq_ix1 j).symm
  · intro e _; rfl
  · intro j _; exact congrArg upd (eq_ix1 j)

end Cert.LibVecScatter

end
-- ==== Proof.LibRealSums.lean ====
/-
  The extended reals that are real numbers. They are closed under the operations of the ideal instance that a
  sum-and-scale computation uses (sum, product, maximum, finite sums, the quotient of one by a real that is at least one),
  the bit patterns of zero and of one denote them, and over them a scaled aggregate of matrix products is the matrix
  product of the scaled aggregate: the distributive law, which fails over the extended reals at large (a sum that meets
  both infinities) and holds as soon as every entry is a real number.
-/
import Idealize.ShloMosaic.PureOps.Ideal
import Idealize.ShloMosaic.PureOps.Ideal.Laws
import Idealize.ShloMosaic.Lib.IdealHost
import Mathlib.Algebra.BigOperators.Ring.Finset
import Mathlib.Tactic.Ring
import Mathlib.Tactic.Linarith

namespace Cert.LibRealSums

open Idealize.ShloMosaic

/-- An extended real that is a real number: neither infinity. -/
def IsReal (x : EReal) : Prop := ∃ r : ℝ, x = (r : EReal)

/-- A real number, seen as an extended real, is a real number. -/
theorem isReal_coe (r : ℝ) : IsReal (r : EReal) := ⟨r, rfl⟩

/-- Zero is a real number. -/
theorem isReal_zero : IsReal 0 := ⟨0, EReal.coe_zero.symm⟩

/-- One is a real number. -/
theorem isReal_one : IsReal 1 := ⟨1, EReal.coe_one.symm⟩

/-- The sum of two real numbers is a real number. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The larger of two real numbers is a real number: it is one of the two. -/
theorem isReal_max {x y : EReal} (hx : IsReal x) (hy : IsReal y) : IsReal (max x y) := by
  rcases le_total x y with h | h
  · rw [max_eq_right h]; exact hy
  · rw [max_eq_left h]; exact hx

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The single-precision pattern of zero denotes zero. -/
theorem ofBits_zero : Ideal.ofBits .f32 0x00000000#32 = 0 := Ideal.ofBits_zero_f32

/-- The single-precision pattern `0x3F800000` denotes one. -/
theorem ofBits_one : Ideal.ofBits .f32 0x3F800000#32 = 1 := Ideal.ofBits_one_f32

/-- The single-precision pattern of zero denotes a real number. -/
theorem isReal_ofBits_zero : IsReal (Ideal.ofBits .f32 0x00000000#32) := by
  rw [ofBits_zero]; exact isReal_zero

/-- The single-precision pattern of one denotes a real number. -/
theorem isReal_ofBits_one : IsReal (Ideal.ofBits .f32 0x3F800000#32) := by
  rw [ofBits_one]; exact isReal_one

/-- The inverse degree: the quotient of one by the larger of a real number and one is a real number. The divisor is a
    real that is at least one, so it is not zero, and the quotient is the product with its reciprocal. -/
theorem isReal_invDeg (d : EReal) (hd : IsReal d) : IsReal (Ideal.div 1 (max d 1)) := by
  obtain ⟨m, hm⟩ := isReal_max hd isReal_one
  have h1 : (1 : ℝ) ≤ m := by
    have h : ((1 : ℝ) : EReal) ≤ (m : EReal) := by
      rw [← hm, EReal.coe_one]; exact le_max_right _ _
    exact EReal.coe_le_coe_iff.1 h
  have hne : m ≠ 0 := by linarith
  rw [hm, Ideal.div_coe hne, one_mul]
  exact isReal_coe _

/-- The distributive law of the aggregation. Over real entries, the sum over a set `S` of rows of the matrix products
    `∑ k, a e k * w k`, scaled by `v`, is the matrix product of the scaled sum of the rows: both are the double sum of
    `a e k * v * w k`. The leading zeros are the initial values the two sums start from. -/
theorem agg_law {ι κ : Type} [Fintype κ] (S : Finset ι) (a : ι → κ → EReal) (w : κ → EReal) (v : EReal)
    (ha : ∀ e k, IsReal (a e k)) (hw : ∀ k, IsReal (w k)) (hv : IsReal v) :
    (0 + ∑ e ∈ S, ∑ k, a e k * w k) * v = ∑ k, ((0 + ∑ e ∈ S, a e k) * v) * w k := by
  choose ar har using ha
  choose wr hwr using hw
  obtain ⟨vr, rfl⟩ := hv
  obtain rfl : a = fun e k => (ar e k : EReal) := funext fun e => funext fun k => har e k
  obtain rfl : w = fun k => (wr k : EReal) := funext hwr
  simp only [zero_add, ← EReal.coe_mul, ← coe_sum]
  congr 1
  simp only [Finset.sum_mul]
  rw [Finset.sum_comm]
  exact Finset.sum_congr rfl fun k _ => Finset.sum_congr rfl fun e _ => by ring

end Cert.LibRealSums
-- ==== Proof.EdgeLaws.lean ====
/-
  THREE LAWS OF SUMS OVER THE EDGES THAT LAND ON ONE NODE, over extended reals that are real numbers.

  A graph's edges `e` carry real weights; the edges landing on a node form a finite set `H`, and every sum starts from a
  zero `z`. Over the extended reals at large none of the three holds (a sum that meets both infinities is the bottom
  element whatever else it holds, and multiplying by a negative number does not distribute over it); as soon as every
  entry is a real number they are the distributive law and the splitting of a sum of differences:

    • `scaled_sum`: a factor `c` taken inside each term, `z + ∑ (c·f)·w·x`, is the factor outside, `c·(z + ∑ f·(w·x))`;
    • `difference_sum`: the number of edges times a fixed entry `a`, minus the sum of the entries `b e`, is the sum of the
      differences `a − b e` (the fixed entry read once per edge), both scaled by a factor `s`;
    • `negated_sum`: a sign carried inside each term, `z + ∑ ((s·p)·(z − k))·x` with `s = −1`, is the sign outside,
      `s·(z + ∑ (p·(−k))·x)`.
-/
import proofs.«151074_j47021301957211_2_alg».proof.Proof.LibRealSums

namespace Cert.EdgeLaws

open Cert.LibRealSums

/-- A real factor taken inside every term of a sum of real products is the factor outside the sum. -/
theorem scaled_sum {ι : Type} (H : Finset ι) (z c : EReal) (f w x : ι → EReal) (hz : z = 0) (hc : IsReal c)
    (hf : ∀ e, IsReal (f e)) (hw : ∀ e, IsReal (w e)) (hx : ∀ e, IsReal (x e)) :
    z + ∑ e ∈ H, ((c * f e) * w e) * x e = c * (z + ∑ e ∈ H, f e * (w e * x e)) := by
  subst hz
  obtain ⟨cr, rfl⟩ := hc
  choose fr hfr using hf
  choose wr hwr using hw
  choose xr hxr using hx
  obtain rfl : f = fun e => (fr e : EReal) := funext hfr
  obtain rfl : w = fun e => (wr e : EReal) := funext hwr
  obtain rfl : x = fun e => (xr e : EReal) := funext hxr
  simp only [zero_add, ← EReal.coe_mul, ← coe_sum]
  congr 1
  rw [Finset.mul_sum]
  exact Finset.sum_congr rfl fun e _ => by ring

/-- The scaled sum is a real number. -/
theorem isReal_scaled_sum {ι : Type} (H : Finset ι) (z c : EReal) (f w x : ι → EReal) (hz : z = 0) (hc : IsReal c)
    (hf : ∀ e, IsReal (f e)) (hw : ∀ e, IsReal (w e)) (hx : ∀ e, IsReal (x e)) :
    IsReal (c * (z + ∑ e ∈ H, f e * (w e * x e))) := by
  subst hz
  exact isReal_mul hc (isReal_add isReal_zero (isReal_sum H _ fun e _ => isReal_mul (hf e) (isReal_mul (hw e) (hx e))))

/-- The count of the edges (a sum of ones) times a fixed real entry, minus the sum of the edges' real entries, is the
    sum over the edges of the fixed entry minus the edge's entry — the fixed entry may be read through any function
    that returns it on every edge of the set. -/
theorem difference_sum {ι : Type} (H : Finset ι) (z s one a : EReal) (ai b : ι → EReal) (hz : z = 0) (hs : IsReal s)
    (hone : one = 1) (ha : IsReal a) (hai : ∀ e ∈ H, ai e = a) (hb : ∀ e, IsReal (b e)) :
    s * ((z + ∑ _e ∈ H, one) * a - (z + ∑ e ∈ H, b e)) = s * (z + ∑ e ∈ H, (ai e - b e)) := by
  subst hz hone
  obtain ⟨ar, rfl⟩ := ha
  obtain ⟨sr, rfl⟩ := hs
  choose br hbr using hb
  obtain rfl : b = fun e => (br e : EReal) := funext hbr
  rw [Finset.sum_congr rfl (fun e he => by rw [hai e he] : ∀ e ∈ H, ai e - (br e : EReal) = (ar : EReal) - (br e : EReal))]
  rw [show (1 : EReal) = ((1 : ℝ) : EReal) from EReal.coe_one.symm]
  simp only [zero_add, ← EReal.coe_mul, ← EReal.coe_sub, ← coe_sum]
  congr 2
  rw [Finset.sum_sub_distrib, Finset.sum_const, Finset.sum_const, nsmul_eq_mul, nsmul_eq_mul, mul_one]

/-- The sign minus one carried inside each real term, against the negated entry, is the sign outside the sum. -/
theorem negated_sum {ι : Type} (H : Finset ι) (z s : EReal) (p k x : ι → EReal) (hz : z = 0)
    (hs : s = ((-1 : ℝ) : EReal)) (hp : ∀ e, IsReal (p e)) (hk : ∀ e, IsReal (k e)) (hx : ∀ e, IsReal (x e)) :
    z + ∑ e ∈ H, ((s * p e) * (z - k e)) * x e = s * (z + ∑ e ∈ H, (p e * (-(k e))) * x e) := by
  subst hz hs
  choose pr hpr using hp
  choose kr hkr using hk
  choose xr hxr using hx
  obtain rfl : p = fun e => (pr e : EReal) := funext hpr
  obtain rfl : k = fun e => (kr e : EReal) := funext hkr
  obtain rfl : x = fun e => (xr e : EReal) := funext hxr
  simp only [zero_add, zero_sub, ← EReal.coe_neg, ← EReal.coe_mul, ← coe_sum]
  congr 1
  rw [Finset.mul_sum]
  exact Finset.sum_congr rfl fun e _ => by ring

end Cert.EdgeLaws
-- ==== Proof.NodeSums.lean ====
/-
  THE SUMS OVER A NODE'S EDGES, in the host's spelling, read at an entry.

  Edges carry rows of two coordinates; a column of `E` words names the node each edge lands on, and `zeros.at[i].add(rows)`
  sums the rows landing on each node. Over real entries:
    • `scaled_nodeSum`: rows scaled edge by edge by `(h·f)·w` sum to `h` times the sum of the rows scaled by `f·w`;
    • `node_law`: the count of a node's edges times the node's own row `M n`, minus the sum of the rows `M (j e)` gathered
      at the edges' other ends, is the sum over the edges of `M (i e) − M (j e)` — an edge landing on `n` reads `M n` through
      its own first end, whichever way a negative or overlarge word is normalized for reading (`hI`) —, and a sign carried
      inside the cohesion rows is the sign outside their sum.
  A value per row spread over the columns (`[a] → [a, 1] → [a, b]`) reads the value at the row (`col_spread_apply`).
-/
import proofs.«151074_j47021301957211_2_alg».proof.Proof.LibAggRows
import proofs.«151074_j47021301957211_2_alg».proof.Proof.LibVecScatter
import proofs.«151074_j47021301957211_2_alg».proof.Proof.LibRealSums
import proofs.«151074_j47021301957211_2_alg».proof.Proof.EdgeLaws
import Idealize.ShloMosaic.Lib.Pipeline.Value

noncomputable section

open scoped BigOperators

namespace Cert.NodeSums

open Idealize.ShloMosaic Idealize.ShloMosaic.ValueIdx
open Cert.LibAggRows Cert.LibVecScatter Cert.LibRealSums Cert.EdgeLaws

/-- One value per row, laid out as a column and spread over `b` columns, read at `(p, q)`: the row's value. -/
theorem col_spread_apply {α : Type} {a b : Nat}
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (v : (⟨1, ![a]⟩ : Shape).Idx → α) (p : Fin a) (q : Fin b) :
    broadcastInDim ⟨2, ![a, b]⟩ ![0, 1] h2 (broadcastInDim ⟨2, ![a, 1]⟩ ![0] h1 v) (ix2 p q) = v (ix1 p) := by
  have hp : p.val < a := p.isLt
  have e2 := broadcastInDim_apply (![0, 1] : Fin 2 → Fin 2) h2 (broadcastInDim ⟨2, ![a, 1]⟩ ![0] h1 v) (ix2 p q) (ix2 p (0 : Fin 1))
    (fun a' => match a' with
      | ⟨0, _⟩ => by show p.val = if a = 1 then 0 else p.val; split <;> omega
      | ⟨1, _⟩ => by show 0 = if (1 : Nat) = 1 then 0 else q.val; rw [if_pos rfl])
  have e1 := broadcastInDim_apply (![0] : Fin 1 → Fin 2) h1 v (ix2 p (0 : Fin 1)) (ix1 p)
    (fun a' => match a' with
      | ⟨0, _⟩ => by show p.val = if a = 1 then 0 else p.val; split <;> omega)
  rw [e2, e1]

section Sums

variable {N E w : Nat}
  (wfs : ScatterDims.WF ⟨2, ![N, 2]⟩ ⟨2, ![E, 1]⟩ ⟨2, ![E, 2]⟩ [1] [0] [0] 1)
  (wfv : ScatterDims.WF ⟨1, ![N]⟩ ⟨2, ![E, 1]⟩ ⟨1, ![E]⟩ [] [0] [0] 1)
  (wfg : GatherDims.WF ⟨2, ![N, 2]⟩ ⟨2, ![E, 1]⟩ ⟨2, ![E, 2]⟩ [1] [0] [] [0] [] 1 ![1, 2])

/-- Rows scaled by `(h·f)·w` sum to `h` times the sum of the rows scaled by `f·w`. -/
theorem scaled_nodeSum (Z : FVec Ideal ⟨2, ![N, 2]⟩ .f32) (hZ : ∀ i, Z i = 0) (idx : IVec ⟨2, ![E, 1]⟩ w)
    (UK UR : FVec Ideal ⟨2, ![E, 2]⟩ .f32) (h : EReal) (f wt : Fin E → EReal) (x : Fin E → Fin 2 → EReal)
    (hUK : ∀ e c, UK (ix2 e c) = ((h * f e) * wt e) * x e c) (hUR : ∀ e c, UR (ix2 e c) = f e * (wt e * x e c))
    (hh : IsReal h) (hf : ∀ e, IsReal (f e)) (hw : ∀ e, IsReal (wt e)) (hx : ∀ e c, IsReal (x e c))
    (n : Fin N) (c : Fin 2) :
    Host.scatterAdd (F := Ideal) (rowScatterDims N E 2 wfs) Z idx UK (ix2 n c)
      = h * Host.scatterAdd (F := Ideal) (rowScatterDims N E 2 wfs) Z idx UR (ix2 n c) := by
  rw [rowScatterAdd_apply, rowScatterAdd_apply, hZ]
  simp only [hUK, hUR]
  exact scaled_sum _ 0 h f wt (fun e => x e c) rfl hh hf hw (fun e => hx e c)

/-- That scaled sum is a real number. -/
theorem isReal_scaled_nodeSum (Z : FVec Ideal ⟨2, ![N, 2]⟩ .f32) (hZ : ∀ i, Z i = 0) (idx : IVec ⟨2, ![E, 1]⟩ w)
    (UR : FVec Ideal ⟨2, ![E, 2]⟩ .f32) (h : EReal) (f wt : Fin E → EReal) (x : Fin E → Fin 2 → EReal)
    (hUR : ∀ e c, UR (ix2 e c) = f e * (wt e * x e c))
    (hh : IsReal h) (hf : ∀ e, IsReal (f e)) (hw : ∀ e, IsReal (wt e)) (hx : ∀ e c, IsReal (x e c))
    (n : Fin N) (c : Fin 2) :
    IsReal (h * Host.scatterAdd (F := Ideal) (rowScatterDims N E 2 wfs) Z idx UR (ix2 n c)) := by
  rw [rowScatterAdd_apply, hZ]
  simp only [hUR]
  exact isReal_scaled_sum _ 0 h f wt (fun e => x e c) rfl hh hf hw (fun e => hx e c)

/-- The count of a node's edges times its row, minus the rows gathered at the edges' other ends (`GJ`), against the sum of the
    differences read edge by edge (`UD`); and the cohesion rows' sign inside (`UK`) against outside (`UR`). The arrays are
    given with what they hold at an entry. -/
theorem node_law (hN : 0 < N) (Z : FVec Ideal ⟨2, ![N, 2]⟩ .f32) (hZ : ∀ i, Z i = 0)
    (Zv : FVec Ideal ⟨1, ![N]⟩ .f32) (hZv : ∀ i, Zv i = 0) (ones : FVec Ideal ⟨1, ![E]⟩ .f32) (hones : ∀ e, ones e = 1)
    (I0 I' J' : IVec ⟨2, ![E, 1]⟩ w) (hI : ∀ e n, dstRow? N I0 e = some n → srcRow N hN I' e = n)
    (M : FVec Ideal ⟨2, ![N, 2]⟩ .f32) (hM : ∀ i, IsReal (M i))
    (GJ UD UK UR : FVec Ideal ⟨2, ![E, 2]⟩ .f32) (s z : EReal) (hs : s = ((-1 : ℝ) : EReal)) (hz : z = 0)
    (p k : Fin E → EReal) (x : Fin E → Fin 2 → EReal)
    (hGJ : ∀ e c, GJ (ix2 e c) = M (ix2 (srcRow N hN J' e) c))
    (hUD : ∀ e c, UD (ix2 e c) = M (ix2 (srcRow N hN I' e) c) - M (ix2 (srcRow N hN J' e) c))
    (hUK : ∀ e c, UK (ix2 e c) = ((s * p e) * (z - k e)) * x e c) (hUR : ∀ e c, UR (ix2 e c) = (p e * (-(k e))) * x e c)
    (hp : ∀ e, IsReal (p e)) (hk : ∀ e, IsReal (k e)) (hx : ∀ e c, IsReal (x e c)) (n : Fin N) (c : Fin 2) :
    s * (Host.scatterAdd (F := Ideal) (vecScatterDims N E wfv) Zv I0 ones (ix1 n) * M (ix2 n c)
          - Host.scatterAdd (F := Ideal) (rowScatterDims N E 2 wfs) Z I0 GJ (ix2 n c))
        + Host.scatterAdd (F := Ideal) (rowScatterDims N E 2 wfs) Z I0 UK (ix2 n c)
      = s * Host.scatterAdd (F := Ideal) (rowScatterDims N E 2 wfs) Z I0 UD (ix2 n c)
        + s * Host.scatterAdd (F := Ideal) (rowScatterDims N E 2 wfs) Z I0 UR (ix2 n c) := by
  rw [vecScatterAdd_apply, rowScatterAdd_apply, rowScatterAdd_apply, rowScatterAdd_apply, rowScatterAdd_apply, hZ, hZv]
  simp only [hGJ, hUD, hUK, hUR, hones]
  subst hz
  refine congrArg₂ (· + ·) ?_ ?_
  · exact difference_sum _ 0 s 1 (M (ix2 n c)) (fun e => M (ix2 (srcRow N hN I' e) c)) (fun e => M (ix2 (srcRow N hN J' e) c)) rfl
      (hs ▸ isReal_coe _) rfl (hM _) (fun e he => by rw [hI e n (Finset.mem_filter.1 he).2]) (fun e => hM _)
  · exact negated_sum _ 0 s p k (fun e => x e c) rfl hs hp hk (fun e => hx e c)

end Sums

end Cert.NodeSums

end
-- ==== Proof.EdgeTerms.lean ====
/-
  THE BODY'S SCALAR FUNCTIONS OVER THE EXTENDED REALS, and a word read through the gather's index normalization.

  At the ideal values the gradient scale of an edge is `(h·f) · slope(q)` with `slope(q) = (C · ((−20·q) · max(0, 1−q)³)) / h`
  and the cohesion scale is `((−1)·g) · (0 − kern(q))`. For a real `q` both `slope(q)` and `kern(q)` are real numbers: the
  float constants are finite patterns, hence real, the divisor `h` is a normal pattern, hence a real that is not zero, and
  reals are closed under sum, difference, product, maximum and a choice between two. The pattern `0xBF800000` is `−1`.
  A word that is not negative as a signed integer is left alone by `where(v < 0, v + n, v)`.
-/
import proofs.«151074_j47021301957211_2_alg».proof.Proof.RegionValue
import proofs.«151074_j47021301957211_2_alg».proof.Proof.LibRealSums

noncomputable section

namespace Cert.EdgeTerms

open Idealize.ShloMosaic Cert.LibRealSums Cert.KernelIdeal.Region

/-! ## Float constants -/

/-- A single-precision pattern whose exponent field is not all ones denotes a real number. -/
theorem isReal_ofBits (b : BitVec 32) (h : (b.extractLsb' 23 8).toNat ≠ 255) : IsReal (Ideal.ofBits .f32 b) := by
  dsimp only [Ideal.ofBits, Ideal.ieee]
  split_ifs with h1 h2 h3 h4
  all_goals first | exact ⟨_, rfl⟩ | (exfalso; exact h (by simpa using h1))

/-- A NORMAL single-precision pattern (exponent field neither zero nor all ones) denotes a real number that is not zero. -/
theorem ofBits_normal (b : BitVec 32) (h1 : (b.extractLsb' 23 8).toNat ≠ 255) (h0 : (b.extractLsb' 23 8).toNat ≠ 0) :
    ∃ r : ℝ, r ≠ 0 ∧ Ideal.ofBits .f32 b = (r : EReal) := by
  dsimp only [Ideal.ofBits, Ideal.ieee]
  rw [if_neg (by simpa using h1), if_neg h0]
  refine ⟨_, ?_, rfl⟩
  refine mul_ne_zero (mul_ne_zero ?_ ?_) (zpow_ne_zero _ (by norm_num))
  · split <;> norm_num
  · exact_mod_cast (by positivity : (0 : ℝ) < ((2 ^ 23 + (b.extractLsb' 0 23).toNat : ℕ) : ℝ)).ne'

/-- The pattern `0xBF800000` is minus one. -/
theorem ofBits_neg_one : Ideal.ofBits .f32 0xBF800000#32 = ((-1 : ℝ) : EReal) := by
  simp [Ideal.ofBits, Ideal.ieee, -EReal.coe_mul, -EReal.coe_neg]; norm_num

/-- A quotient of a real by a real that is not zero is a real. -/
theorem isReal_div {x y : EReal} (hx : IsReal x) (hy : ∃ r : ℝ, r ≠ 0 ∧ y = (r : EReal)) : IsReal (Ideal.div x y) := by
  obtain ⟨r, hr, rfl⟩ := hy
  rw [Ideal.div_coe hr]
  exact isReal_mul hx (isReal_coe _)

/-- The difference of two real numbers is a real number. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

/-! ## The slope and the cohesion polynomial -/

/-- `(C · ((−20·q) · max(0, 1−q)³)) / h`. -/
def slopeAt (q : EReal) : EReal :=
  Ideal.div
    (Ideal.ofBits .f32 0x445ED122#32 *
      ((Ideal.ofBits .f32 0xC1A00000#32 * q) * ((clipAt (F := Ideal) q * clipAt (F := Ideal) q) * clipAt (F := Ideal) q)))
    (Ideal.ofBits .f32 0x3D4CCCCD#32)

/-- The gradient scale is `(h·f) · slope(q)`. -/
theorem gradAt_eq (q f : EReal) : gradAt (F := Ideal) q f = (Ideal.ofBits .f32 0x3D4CCCCD#32 * f) * slopeAt q := rfl

/-- The cohesion scale is `((−1)·g) · (0 − kern(q))`. -/
theorem cohAt_eq (q g : EReal) :
    cohAt (F := Ideal) q g = (Ideal.ofBits .f32 0xBF800000#32 * g) * (Ideal.ofBits .f32 0x00000000#32 - kernAt (F := Ideal) q) := rfl

theorem isReal_clip {q : EReal} (hq : IsReal q) : IsReal (clipAt (F := Ideal) q) := by
  show IsReal (max (Ideal.ofBits .f32 0x00000000#32) (Ideal.ofBits .f32 0x3F800000#32 - q))
  exact isReal_max (isReal_ofBits _ (by decide)) (isReal_sub (isReal_ofBits _ (by decide)) hq)

theorem isReal_slope {q : EReal} (hq : IsReal q) : IsReal (slopeAt q) := by
  unfold slopeAt
  refine isReal_div ?_ (ofBits_normal _ (by decide) (by decide))
  exact isReal_mul (isReal_ofBits _ (by decide))
    (isReal_mul (isReal_mul (isReal_ofBits _ (by decide)) hq)
      (isReal_mul (isReal_mul (isReal_clip hq) (isReal_clip hq)) (isReal_clip hq)))

theorem isReal_cubes {q : EReal} (hq : IsReal q) : IsReal (cubesAt (F := Ideal) q) := by
  have h1 : IsReal (q - Ideal.ofBits .f32 0x3F800000#32) := isReal_sub hq (isReal_ofBits _ (by decide))
  show IsReal (((q - Ideal.ofBits .f32 0x3F800000#32) * (q - Ideal.ofBits .f32 0x3F800000#32) * (q - Ideal.ofBits .f32 0x3F800000#32)) * ((q * q) * q))
  exact isReal_mul (isReal_mul (isReal_mul h1 h1) h1) (isReal_mul (isReal_mul hq hq) hq)

theorem isReal_kern {q : EReal} (hq : IsReal q) : IsReal (kernAt (F := Ideal) q) := by
  unfold kernAt Scalar.select
  split
  · exact isReal_add (isReal_mul (isReal_ofBits _ (by decide)) (isReal_cubes hq)) (isReal_ofBits _ (by decide))
  · exact isReal_mul (isReal_ofBits _ (by decide)) (isReal_cubes hq)

/-! ## A word through the index normalization -/

/-- A word that is not negative, read signed, is left alone by `where(v < 0, v + n, v)`. -/
theorem wrap_of_nonneg (v n : BitVec 32) (h : 0 ≤ v.toInt) :
    Scalar.select (IntOp.cmpi .slt v 0#32) (IntOp.addi v n) v = v := by
  have hc : IntOp.cmpi .slt v 0#32 = 0#1 := by
    unfold IntOp.cmpi
    have : v.slt 0#32 = false := by
      simp only [BitVec.slt, BitVec.toInt_zero, decide_eq_false_iff_not, not_lt]
      exact h
    rw [this]; rfl
  unfold Scalar.select
  rw [hc, if_neg (by decide)]

end Cert.EdgeTerms

end
-- ==== Proof.BridgeRows.lean ====
/-
  THE ROWS THE TWO PROGRAMS SUM, EDGE BY EDGE, over the extended reals.

  Edge `e` reads the node tables at row `src e` (its second end, a negative word counted from the end, clamped). With
  `f e = areas / densities` and `p e = areas · restDensity` there, `w e = slope(q e)`, `k e = kern(q e)` and `x e c` the
  edge's direction, the kernel's rows are `((h·f)·w)·x` and `(((−1)·p)·(0 − k))·x` — the region's two arrays flattened back
  to one entry per edge (`flat_G3`, `flat_G4`: a round trip through the `[50000, 128]` layout is the identity) and spread
  over the two coordinates — and the reference's are `f·(w·x)` and `(p·(−k))·x`.
-/
import proofs.«151074_j47021301957211_2_alg».proof.Proof.KernelTail
import proofs.«151074_j47021301957211_2_alg».proof.Proof.Gen.ReferenceIdeal.Read
import proofs.«151074_j47021301957211_2_alg».proof.Proof.NodeSums
import proofs.«151074_j47021301957211_2_alg».proof.Proof.EdgeTerms

set_option maxRecDepth 16384

noncomputable section

open scoped BigOperators

namespace Cert.Bridge

open Idealize.ShloMosaic Idealize.ShloMosaic.ValueIdx
open Cert.LibAggRows Cert.LibVecScatter Cert.LibRealSums Cert.NodeSums Cert.EdgeTerms
open Cert.KernelIdeal Cert.KernelIdeal.Region Cert.KernelIdeal.Tail Cert.KernelIdeal.Facts₀

variable (nb : IVec S2x6400000 32) (A D R : FVec Ideal S100000 .f32) (Q : FVec Ideal S6400000 .f32)
  (X : FVec Ideal S6400000x2 .f32)

/-! ## The per-edge quantities -/

/-- The row of the node tables that edge `e` reads. -/
def src (e : Fin 6400000) : S100000.Idx :=
  gather_S100000_S6400000x1_S6400000_n_0_n_n_0_1_1.operandIdx (ix1 e) (col (wrap (jWords nb)))

def fE (e : Fin 6400000) : EReal := Ideal.div (A (src nb e)) (D (src nb e))
def wE (e : Fin 6400000) : EReal := slopeAt (Q (ix1 e))
def pE (e : Fin 6400000) : EReal := A (src nb e) * R (src nb e)
def kE (e : Fin 6400000) : EReal := kernAt (F := Ideal) (Q (ix1 e))
def xE (e : Fin 6400000) (c : Fin 2) : EReal := X (ix2 e c)

/-- The float constants the two programs share. -/
abbrev hC : EReal := Ideal.ofBits .f32 0x3D4CCCCD#32
abbrev sC : EReal := Ideal.ofBits .f32 0xBF800000#32
abbrev zC : EReal := Ideal.ofBits .f32 0x00000000#32

/-! ## The region's arrays, flattened -/

/-- An array laid out as `[50000, 128]`, mapped entry by entry and flattened again, is the map on the flat array. -/
theorem flat_G3 (h1 : S6400000.ShapeCasts S50000x128) (h2 : S50000x128.ShapeCasts S6400000) (q f : FVec Ideal S6400000 .f32) :
    shapeCast S6400000 (G3 (F := Ideal) (shapeCast S50000x128 q h1) (shapeCast S50000x128 f h1)) h2 = fun i => gradAt (F := Ideal) (q i) (f i) := by
  funext i
  show gradAt (F := Ideal) (shapeCast S50000x128 q h1 (Shape.reshapeEquiv h2 i)) (shapeCast S50000x128 f h1 (Shape.reshapeEquiv h2 i)) = _
  rw [show shapeCast S50000x128 q h1 (Shape.reshapeEquiv h2 i) = q i from congrFun (shapeCast_shapeCast q h1 h2) i,
    show shapeCast S50000x128 f h1 (Shape.reshapeEquiv h2 i) = f i from congrFun (shapeCast_shapeCast f h1 h2) i]

theorem flat_G4 (h1 : S6400000.ShapeCasts S50000x128) (h2 : S50000x128.ShapeCasts S6400000) (q g : FVec Ideal S6400000 .f32) :
    shapeCast S6400000 (G4 (F := Ideal) (shapeCast S50000x128 q h1) (shapeCast S50000x128 g h1)) h2 = fun i => cohAt (F := Ideal) (q i) (g i) := by
  funext i
  show cohAt (F := Ideal) (shapeCast S50000x128 q h1 (Shape.reshapeEquiv h2 i)) (shapeCast S50000x128 g h1 (Shape.reshapeEquiv h2 i)) = _
  rw [show shapeCast S50000x128 q h1 (Shape.reshapeEquiv h2 i) = q i from congrFun (shapeCast_shapeCast q h1 h2) i,
    show shapeCast S50000x128 g h1 (Shape.reshapeEquiv h2 i) = g i from congrFun (shapeCast_shapeCast g h1 h2) i]

/-- The kernel's gradient scales, one per edge. -/
def gsArr : FVec Ideal S6400000 .f32 := fun i => gradAt (F := Ideal) (Q i) (facN nb A D i)
/-- The kernel's cohesion scales, one per edge. -/
def csArr : FVec Ideal S6400000 .f32 := fun i => cohAt (F := Ideal) (Q i) (facC nb A R i)

/-- The kernel's rows summed into the normals, and its cohesion rows. -/
def rowsK : FVec Ideal S6400000x2 .f32 := mulf (spread (gsArr nb A D Q)) X
def cohRowsK : FVec Ideal S6400000x2 .f32 := mulf (spread (csArr nb A R Q)) X
/-- The kernel's normals. -/
def normalsK : FVec Ideal S100000x2 .f32 := nodeSum (iWords nb) (rowsK nb A D Q X)

theorem kernelResult_eq :
    kernelResult (F := Ideal) nb A D R Q X
      = addf
          (mulf (broadcastInDim S100000x2 ![] bcast_S_S100000x2 (constant S_ .f32 0xBF800000#32))
            (subf
              (mulf (broadcastInDim S100000x2 ![0, 1] bcast_S100000x1_S100000x2_0_1 (broadcastInDim S100000x1 ![0] bcast_S100000_S100000x1_0 (degree (iWords nb))))
                (normalsK nb A D Q X))
              (nodeSum (iWords nb) (Host.gather gather_S100000x2_S6400000x1_S6400000x2_1_0_n_n_0_1_12 (normalsK nb A D Q X) (col (wrap (jWords nb)))))))
          (nodeSum (iWords nb) (cohRowsK nb A R Q X)) := by
  unfold kernelResult tailForm
  rw [flat_G3, flat_G4]
  rfl

/-! ## The rows, edge by edge -/

theorem rowsK_apply (e : Fin 6400000) (c : Fin 2) :
    rowsK nb A D Q X (ix2 e c) = ((hC * fE nb A D e) * wE Q e) * xE X e c := by
  show spread (gsArr nb A D Q) (ix2 e c) * X (ix2 e c) = _
  rw [show spread (gsArr nb A D Q) (ix2 e c) = gsArr nb A D Q (ix1 e) from
    col_spread_apply bcast_S6400000_S6400000x1_0 bcast_S6400000x1_S6400000x2_0_1 (gsArr nb A D Q) e c]
  rfl

theorem cohRowsK_apply (e : Fin 6400000) (c : Fin 2) :
    cohRowsK nb A R Q X (ix2 e c) = ((sC * pE nb A R e) * (zC - kE Q e)) * xE X e c := by
  show spread (csArr nb A R Q) (ix2 e c) * X (ix2 e c) = _
  rw [show spread (csArr nb A R Q) (ix2 e c) = csArr nb A R Q (ix1 e) from
    col_spread_apply bcast_S6400000_S6400000x1_0 bcast_S6400000x1_S6400000x2_0_1 (csArr nb A R Q) e c]
  rfl

theorem rowsR_apply (e : Fin 6400000) (c : Fin 2) :
    Cert.ReferenceIdeal.Read.val_main_v36 (F := Ideal) nb A D Q X (ix2 e c) = fE nb A D e * (wE Q e * xE X e c) := by
  have h35 : Cert.ReferenceIdeal.Read.val_main_v35 (F := Ideal) nb A D (ix2 e c) = Cert.ReferenceIdeal.Read.val_main_v18 (F := Ideal) nb A D (ix1 e) := by
    unfold Cert.ReferenceIdeal.Read.val_main_v35 Cert.ReferenceIdeal.Read.val_main_v34
    exact col_spread_apply _ _ _ e c
  have h32 : Cert.ReferenceIdeal.Read.val_main_v32 (F := Ideal) Q (ix2 e c) = Cert.ReferenceIdeal.Read.val_main_v30 (F := Ideal) Q (ix1 e) := by
    unfold Cert.ReferenceIdeal.Read.val_main_v32 Cert.ReferenceIdeal.Read.val_main_v31
    exact col_spread_apply _ _ _ e c
  show Cert.ReferenceIdeal.Read.val_main_v35 (F := Ideal) nb A D (ix2 e c)
    * (Cert.ReferenceIdeal.Read.val_main_v32 (F := Ideal) Q (ix2 e c) * X (ix2 e c)) = _
  rw [h35, h32]
  rfl

theorem cohRowsR_apply (e : Fin 6400000) (c : Fin 2) :
    Cert.ReferenceIdeal.Read.val_main_v97 (F := Ideal) nb A R Q X (ix2 e c) = (pE nb A R e * (-(kE Q e))) * xE X e c := by
  have h96 : Cert.ReferenceIdeal.Read.val_main_v96 (F := Ideal) nb A R Q (ix2 e c) = Cert.ReferenceIdeal.Read.val_main_v94 (F := Ideal) nb A R Q (ix1 e) := by
    unfold Cert.ReferenceIdeal.Read.val_main_v96 Cert.ReferenceIdeal.Read.val_main_v95
    exact col_spread_apply _ _ _ e c
  show Cert.ReferenceIdeal.Read.val_main_v96 (F := Ideal) nb A R Q (ix2 e c) * X (ix2 e c) = _
  rw [h96]
  rfl

end Cert.Bridge

end
-- ==== Proof.Bridge.lean ====
/-
  THE TWO PROGRAMS COMPUTE ONE FUNCTION of the arguments, entry by entry over the extended reals, when every float
  argument is real and no gathered density is zero.

    • the kernel's normals `∑ ((h·f)·w)·x` are the reference's `h · ∑ f·(w·x)` (`normalsK_eq`): a real table;
    • the kernel's `(−1)·(count·normals − ∑ normals[j]) + ∑ cohesion rows` is the reference's
      `(−1)·∑ (normals[i] − normals[j]) + (−1)·∑ cohesion rows` (`NodeSums.node_law`): an edge landing on node `n` reads
      `normals[n]` through its own first end, because a word in `[0, N)` is neither wrapped nor clamped (`first_end`).
-/
import proofs.«151074_j47021301957211_2_alg».proof.Proof.BridgeRows

set_option maxRecDepth 16384

noncomputable section

open scoped BigOperators

namespace Cert.Bridge

open Idealize.ShloMosaic Idealize.ShloMosaic.ValueIdx
open Cert.LibAggRows Cert.LibVecScatter Cert.LibRealSums Cert.NodeSums Cert.EdgeTerms
open Cert.KernelIdeal Cert.KernelIdeal.Region Cert.KernelIdeal.Tail Cert.KernelIdeal.Facts₀

variable (nb : IVec S2x6400000 32) (A D R : FVec Ideal S100000 .f32) (Q : FVec Ideal S6400000 .f32)
  (X : FVec Ideal S6400000x2 .f32)

/-! ## Real entries -/

section Real

variable (hA : ∀ i, IsReal (A i)) (hD : ∀ i, IsReal (D i)) (hR : ∀ i, IsReal (R i)) (hQ : ∀ i, IsReal (Q i))
  (hX : ∀ i, IsReal (X i)) (hD0 : ∀ e, D (src nb e) ≠ 0)

include hA hD hD0 in
theorem isReal_fE (e : Fin 6400000) : IsReal (fE nb A D e) := by
  obtain ⟨r, hr⟩ := hD (src nb e)
  exact isReal_div (hA _) ⟨r, fun h0 => hD0 e (by rw [hr, h0, EReal.coe_zero]), hr⟩

include hQ in
theorem isReal_wE (e : Fin 6400000) : IsReal (wE Q e) := isReal_slope (hQ _)

include hA hR in
theorem isReal_pE (e : Fin 6400000) : IsReal (pE nb A R e) := isReal_mul (hA _) (hR _)

include hQ in
theorem isReal_kE (e : Fin 6400000) : IsReal (kE Q e) := isReal_kern (hQ _)

theorem zeros2_apply (i : S100000x2.Idx) : zeros2 (F := Ideal) i = 0 := Ideal.ofBits_zero_f32

/-! ## The two programs' spellings of the same dimension numbers, zero tables and index columns -/

/-- The row scatter's dimension numbers, in the library's spelling. -/
abbrev rowDims : ScatterDims ⟨2, ![100000, 2]⟩ ⟨2, ![6400000, 1]⟩ ⟨2, ![6400000, 2]⟩ :=
  rowScatterDims 100000 6400000 2 scatter_S100000x2_S6400000x1_S6400000x2_1_0_0_1_wf
/-- The vector scatter's. -/
abbrev vecDims : ScatterDims ⟨1, ![100000]⟩ ⟨2, ![6400000, 1]⟩ ⟨1, ![6400000]⟩ :=
  vecScatterDims 100000 6400000 scatter_S100000_S6400000x1_S6400000_n_0_0_1_wf
/-- The row gather's. -/
abbrev rowGDims : GatherDims ⟨2, ![100000, 2]⟩ ⟨2, ![6400000, 1]⟩ ⟨2, ![6400000, 2]⟩ :=
  rowGatherDims 100000 6400000 2 gather_S100000x2_S6400000x1_S6400000x2_1_0_n_n_0_1_12_wf

theorem dimsK : scatter_S100000x2_S6400000x1_S6400000x2_1_0_0_1 = rowDims := rfl
theorem dimsR : Cert.ReferenceIdeal.scatter_S100000x2_S6400000x1_S6400000x2_1_0_0_1 = rowDims := rfl
theorem vdimsK : scatter_S100000_S6400000x1_S6400000_n_0_0_1 = vecDims := rfl
theorem gdimsK : gather_S100000x2_S6400000x1_S6400000x2_1_0_n_n_0_1_12 = rowGDims := rfl
theorem gdimsR : Cert.ReferenceIdeal.gather_S100000x2_S6400000x1_S6400000x2_1_0_n_n_0_1_12 = rowGDims := rfl

theorem z37 : Cert.ReferenceIdeal.Read.val_main_v37 (F := Ideal) = zeros2 (F := Ideal) := rfl
theorem z57 : Cert.ReferenceIdeal.Read.val_main_v57 (F := Ideal) = zeros2 (F := Ideal) := rfl
theorem z98 : Cert.ReferenceIdeal.Read.val_main_v98 (F := Ideal) = zeros2 (F := Ideal) := rfl
theorem i38 : Cert.ReferenceIdeal.Read.val_main_v38 (F := Ideal) nb = col (iWords nb) := rfl
theorem i58 : Cert.ReferenceIdeal.Read.val_main_v58 (F := Ideal) nb = col (iWords nb) := rfl
theorem i99 : Cert.ReferenceIdeal.Read.val_main_v99 (F := Ideal) nb = col (iWords nb) := rfl
theorem i47 : Cert.ReferenceIdeal.Read.val_main_v47 (F := Ideal) nb = col (wrap (iWords nb)) := rfl
theorem i54 : Cert.ReferenceIdeal.Read.val_main_v54 (F := Ideal) nb = col (wrap (jWords nb)) := rfl
theorem c40 (i : S100000x2.Idx) : Cert.ReferenceIdeal.Read.val_main_v40 (F := Ideal) i = hC := rfl
theorem c60 (i : S100000x2.Idx) : Cert.ReferenceIdeal.Read.val_main_v60 (F := Ideal) i = sC := rfl
theorem c101 (i : S100000x2.Idx) : Cert.ReferenceIdeal.Read.val_main_v101 (F := Ideal) i = sC := rfl

/-! ## The normals -/

/-- The reference's normals at an entry: `h` times the sum of its rows. -/
theorem normalsR_apply (r : Fin 100000) (c : Fin 2) :
    Cert.ReferenceIdeal.Read.val_main_v41 (F := Ideal) nb A D Q X (ix2 r c)
      = hC * Host.scatterAdd (F := Ideal) rowDims (zeros2 (F := Ideal)) (col (iWords nb)) (Cert.ReferenceIdeal.Read.val_main_v36 (F := Ideal) nb A D Q X) (ix2 r c) := by
  rw [Cert.ReferenceIdeal.Read.val_main_v41_apply, Ideal.mulf_def, c40]
  unfold Cert.ReferenceIdeal.Read.val_main_v39
  rw [dimsR, z37, i38]

/-- The kernel's normals at an entry: the sum of its rows. -/
theorem normalsK_apply (r : Fin 100000) (c : Fin 2) :
    normalsK nb A D Q X (ix2 r c)
      = Host.scatterAdd (F := Ideal) rowDims (zeros2 (F := Ideal)) (col (iWords nb)) (rowsK nb A D Q X) (ix2 r c) := by
  unfold normalsK nodeSum
  rw [dimsK]

include hA hD hQ hX hD0 in
/-- The kernel's normals are the reference's. -/
theorem normalsK_eq : normalsK nb A D Q X = Cert.ReferenceIdeal.Read.val_main_v41 (F := Ideal) nb A D Q X := by
  funext i
  obtain ⟨r, c, rfl⟩ : ∃ r c, i = ix2 r c := ⟨i 0, i 1, eq_ix2 i⟩
  rw [normalsK_apply, normalsR_apply]
  exact scaled_nodeSum (N := 100000) (E := 6400000) scatter_S100000x2_S6400000x1_S6400000x2_1_0_0_1_wf
    (zeros2 (F := Ideal)) zeros2_apply (col (iWords nb)) (rowsK nb A D Q X)
    (Cert.ReferenceIdeal.Read.val_main_v36 (F := Ideal) nb A D Q X) hC (fE nb A D) (wE Q) (xE X)
    (rowsK_apply nb A D Q X) (rowsR_apply nb A D Q X) (isReal_ofBits _ (by decide))
    (isReal_fE nb A D hA hD hD0) (isReal_wE Q hQ) (fun e c => hX _) r c

include hA hD hQ hX hD0 in
/-- They are real numbers. -/
theorem isReal_normals (i : S100000x2.Idx) : IsReal (Cert.ReferenceIdeal.Read.val_main_v41 (F := Ideal) nb A D Q X i) := by
  obtain ⟨r, c, rfl⟩ : ∃ r c, i = ix2 r c := ⟨i 0, i 1, eq_ix2 i⟩
  rw [normalsR_apply]
  exact isReal_scaled_nodeSum (N := 100000) (E := 6400000) scatter_S100000x2_S6400000x1_S6400000x2_1_0_0_1_wf
    (zeros2 (F := Ideal)) zeros2_apply (col (iWords nb))
    (Cert.ReferenceIdeal.Read.val_main_v36 (F := Ideal) nb A D Q X) hC (fE nb A D) (wE Q) (xE X)
    (rowsR_apply nb A D Q X) (isReal_ofBits _ (by decide))
    (isReal_fE nb A D hA hD hD0) (isReal_wE Q hQ) (fun e c => hX _) r c

/-! ## An edge's own first end -/

theorem col_apply (v : IVec S6400000 32) (e : Fin 6400000) : col v (ix2 e (0 : Fin 1)) = v (ix1 e) := by
  unfold col
  exact broadcastInDim_apply (![0] : Fin 1 → Fin 2) bcast_S6400000_S6400000x1_0 v (ix2 e (0 : Fin 1)) (ix1 e)
    (fun a => match a with
      | ⟨0, _⟩ => by show e.val = if (6400000 : Nat) = 1 then 0 else e.val; rw [if_neg (by decide)])

/-- An edge that lands on node `n` reads row `n` through its own first end: a word in `[0, N)` is neither counted from the
    end nor clamped. -/
theorem first_end (e : Fin 6400000) (n : Fin 100000) (h : dstRow? 100000 (col (iWords nb)) e = some n) :
    srcRow 100000 (by decide) (col (wrap (iWords nb))) e = n := by
  unfold dstRow? at h
  by_cases hr : 0 ≤ (col (iWords nb) (ix2 e (0 : Fin 1))).toInt ∧ (col (iWords nb) (ix2 e (0 : Fin 1))).toInt < ((100000 : Nat) : Int)
  · rw [dif_pos hr] at h
    have hn : (col (iWords nb) (ix2 e (0 : Fin 1))).toInt.toNat = n.val := congrArg Fin.val (Option.some.inj h)
    have hw : col (wrap (iWords nb)) (ix2 e (0 : Fin 1)) = col (iWords nb) (ix2 e (0 : Fin 1)) := by
      rw [col_apply, col_apply]
      rw [col_apply] at hr
      exact wrap_of_nonneg _ _ hr.1
    apply Fin.ext
    show min (col (wrap (iWords nb)) (ix2 e (0 : Fin 1))).toInt.toNat (100000 - 1) = n.val
    rw [hw]
    omega
  · rw [dif_neg hr] at h
    cases h

/-! ## The results -/

/-- The kernel's gather of a table at the second ends, at an entry. -/
theorem gatherJ_apply (M : FVec Ideal S100000x2 .f32) (e : Fin 6400000) (c : Fin 2) :
    Host.gather gather_S100000x2_S6400000x1_S6400000x2_1_0_n_n_0_1_12 M (col (wrap (jWords nb))) (ix2 e c)
      = M (ix2 (srcRow 100000 (by decide) (col (wrap (jWords nb))) e) c) := by
  rw [gdimsK]
  exact rowGather_apply (N := 100000) (by decide) _ M _ e c

/-- The reference's rows `normals[i] − normals[j]`, at an entry. -/
theorem diffR_apply (e : Fin 6400000) (c : Fin 2) :
    Cert.ReferenceIdeal.Read.val_main_v56 (F := Ideal) nb A D Q X (ix2 e c)
      = Cert.ReferenceIdeal.Read.val_main_v41 (F := Ideal) nb A D Q X (ix2 (srcRow 100000 (by decide) (col (wrap (iWords nb))) e) c)
        - Cert.ReferenceIdeal.Read.val_main_v41 (F := Ideal) nb A D Q X (ix2 (srcRow 100000 (by decide) (col (wrap (jWords nb))) e) c) := by
  rw [Cert.ReferenceIdeal.Read.val_main_v56_apply, Ideal.subf_def]
  unfold Cert.ReferenceIdeal.Read.val_main_v48 Cert.ReferenceIdeal.Read.val_main_v55
  rw [gdimsR, i47, i54]
  rw [rowGather_apply (N := 100000) (by decide), rowGather_apply (N := 100000) (by decide)]

include hA hD hR hQ hX hD0 in
/-- THE TWO RESULTS ARE ONE ARRAY. -/
theorem results_eq : kernelResult (F := Ideal) nb A D R Q X = Cert.ReferenceIdeal.Read.val_main_v103 (F := Ideal) nb A D R Q X := by
  rw [kernelResult_eq, normalsK_eq nb A D Q X hA hD hQ hX hD0]
  funext i
  obtain ⟨n, c, rfl⟩ : ∃ n c, i = ix2 n c := ⟨i 0, i 1, eq_ix2 i⟩
  -- the kernel's entry, over the extended reals' own operations
  rw [addf_apply, mulf_apply, subf_apply, mulf_apply]
  rw [show broadcastInDim S100000x2 ![] bcast_S_S100000x2 (constant (F := Ideal) S_ .f32 0xBF800000#32) (ix2 n c) = sC from rfl,
    col_spread_apply bcast_S100000_S100000x1_0 bcast_S100000x1_S100000x2_0_1 (degree (F := Ideal) (iWords nb)) n c]
  unfold nodeSum degree
  rw [dimsK, vdimsK]
  -- the reference's entry
  rw [Cert.ReferenceIdeal.Read.val_main_v103_apply, Cert.ReferenceIdeal.Read.val_main_v61_apply, Cert.ReferenceIdeal.Read.val_main_v102_apply, Ideal.addf_def, Ideal.mulf_def,
    Ideal.mulf_def, c60, c101]
  unfold Cert.ReferenceIdeal.Read.val_main_v59 Cert.ReferenceIdeal.Read.val_main_v100
  rw [dimsR, z57, z98, i58, i99]
  exact node_law (N := 100000) (E := 6400000) scatter_S100000x2_S6400000x1_S6400000x2_1_0_0_1_wf
    scatter_S100000_S6400000x1_S6400000_n_0_0_1_wf (by decide)
    (zeros2 (F := Ideal)) zeros2_apply
    (broadcastInDim S100000 ![] bcast_S_S100000 (constant S_ .f32 0x00000000#32)) (fun _ => Ideal.ofBits_zero_f32)
    (broadcastInDim S6400000 ![] bcast_S_S6400000 (constant S_ .f32 0x3F800000#32)) (fun _ => Ideal.ofBits_one_f32)
    (col (iWords nb)) (col (wrap (iWords nb))) (col (wrap (jWords nb))) (first_end nb)
    (Cert.ReferenceIdeal.Read.val_main_v41 (F := Ideal) nb A D Q X) (isReal_normals nb A D Q X hA hD hQ hX hD0)
    (Host.gather gather_S100000x2_S6400000x1_S6400000x2_1_0_n_n_0_1_12 (Cert.ReferenceIdeal.Read.val_main_v41 (F := Ideal) nb A D Q X) (col (wrap (jWords nb))))
    (Cert.ReferenceIdeal.Read.val_main_v56 (F := Ideal) nb A D Q X) (cohRowsK nb A R Q X) (Cert.ReferenceIdeal.Read.val_main_v97 (F := Ideal) nb A R Q X)
    sC zC ofBits_neg_one Ideal.ofBits_zero_f32 (pE nb A R) (kE Q) (xE X)
    (gatherJ_apply nb _) (diffR_apply nb A D Q X) (cohRowsK_apply nb A R Q X) (cohRowsR_apply nb A R Q X)
    (isReal_pE nb A R hA hR) (isReal_kE Q hQ) (fun e c => hX _) n c

end Real

end Cert.Bridge

end
-- ==== Proof.lean ====
/-
  The certificate's claims, assembled.

  The two word-level frames are the generated class-A frames. The reference has no kernel: its frame is its run with the
  result dropped. The idealization rewrote nothing, so `preserves` is trivial. For `algebraic`: the kernel program's run ends
  with its result buffer at `Tail.kernelResult` of the launch contents (the region's two arrays entry by entry, then the host
  lines after it), the reference's at its own composed term; the precondition says that every float argument holds real
  numbers and that no density the reference divides by is zero, and over such arguments the two terms are one array
  (`Bridge.results_eq`): the sum over a node's edges of `normals[i] − normals[j]` is the count of the edges times the node's
  row minus the sum of the rows at the other ends, and the constant factors move across the sums.
-/
import proofs.«151074_j47021301957211_2_alg».proof.Defs
import proofs.«151074_j47021301957211_2_alg».proof.Proof.Gen.Kernel
import proofs.«151074_j47021301957211_2_alg».proof.Proof.Gen.Kernel.Skeleton
import proofs.«151074_j47021301957211_2_alg».proof.Proof.Gen.Kernel.Launch
import proofs.«151074_j47021301957211_2_alg».proof.Proof.Gen.Kernel.Points
import proofs.«151074_j47021301957211_2_alg».proof.Proof.Gen.Kernel.Frame
import proofs.«151074_j47021301957211_2_alg».proof.Proof.Gen.KernelIdeal
import proofs.«151074_j47021301957211_2_alg».proof.Proof.Gen.KernelIdeal.Skeleton
import proofs.«151074_j47021301957211_2_alg».proof.Proof.Gen.KernelIdeal.Launch
import proofs.«151074_j47021301957211_2_alg».proof.Proof.Gen.KernelIdeal.Points
import proofs.«151074_j47021301957211_2_alg».proof.Proof.Gen.KernelIdeal.Frame
import proofs.«151074_j47021301957211_2_alg».proof.Proof.Gen.ReferenceIdeal
import proofs.«151074_j47021301957211_2_alg».proof.Proof.Gen.ReferenceIdeal.Run
import proofs.«151074_j47021301957211_2_alg».proof.Proof.Gen.ReferenceIdeal.Read
import proofs.«151074_j47021301957211_2_alg».proof.Proof.Gen.Pre_finite_inputs
import proofs.«151074_j47021301957211_2_alg».proof.Proof.PreFacts
import proofs.«151074_j47021301957211_2_alg».proof.Proof.KernelRun
import proofs.«151074_j47021301957211_2_alg».proof.Proof.Bridge
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the same result array: the kernel's term and the reference's are one function of arguments that are
    real and whose gathered densities are not zero. -/
theorem algebraic : Cert.algebraic_KernelIdeal_ReferenceIdeal := by
  intro m ρ m' ρ' hpre hagree
  refine ⟨_, Cert.KernelIdeal.Tail.kernel_run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v103_eq, (hagree c).1, (hagree c).2.1, (hagree c).2.2.1, (hagree c).2.2.2.1,
    (hagree c).2.2.2.2.1, (hagree c).2.2.2.2.2]
  obtain ⟨hA, hD, hR, hQ, hX, hD0⟩ := Cert.PreFacts.decode _ _ _ _ _ _ (hpre c)
  exact (Cert.Bridge.results_eq _ _ _ _ _ _ hA hD hR hQ hX (fun e => hD0 (ix1 e))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
